-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16384x3 : Shape := ⟨2, ![16384, 3]⟩
abbrev S4096x4096 : Shape := ⟨2, ![4096, 4096]⟩
abbrev S4096x16384 : Shape := ⟨2, ![4096, 16384]⟩
abbrev S1024x1024 : Shape := ⟨2, ![1024, 1024]⟩
abbrev S1024 : Shape := ⟨1, ![1024]⟩
abbrev S1x3 : Shape := ⟨2, ![1, 3]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x3 : S_.BroadcastsInDim S1x3 (![] : Fin 0 → Fin S1x3.rank)
  reducesTo_S1x3_S_d0_1 : S1x3.ReducesTo [0, 1] S_

variable [Facts]

def fn_part1 {F : FTy → Type} [FloatOps F] (main_arg4 : FVec F S1024x1024 .f32) (main_arg5 : FVec F S1024 .f32) (main_arg6 : FVec F S1x3 .f32) (main_v13 : IVec S_ 1) (main_v16 : IVec S4096x16384 1) : IVec S_ 1 :=
  let main_c_5 : IVec S_ 1 := constantI S_ 1 1#1
  let main_v17 : IVec S_ 1 := (fun x v => Host.reduce IntOp.andi x v reducesTo_S4096x16384_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x3 .f32 := Host.absf main_arg6
  let main_cst_10 : FVec F S_ .f32 := constant S_ .f32 0x7F800000#32
  let main_v30 : FVec F S1x3 .f32 := broadcastInDim S1x3 ![] bcast_S_S1x3 main_cst_10
  let main_v31 : IVec S1x3 1 := cmpf .olt main_v29 main_v30
  let main_c_11 : IVec S_ 1 := constantI S_ 1 1#1
  let main_v32 : IVec S_ 1 := (fun x v => Host.reduce IntOp.andi x v reducesTo_S1x3_S_d0_1 h_S_) main_v31 main_c_11
  let main_v33 : IVec S_ 1 := andi main_v28 main_v32
  main_v33

def fn {F : FTy → Type} [FloatOps F] (main_arg0 : FVec F S4096x1024 .f32) (main_arg1 : FVec F S16384x3 .f32) (main_arg2 : FVec F S4096x4096 .f32) (main_arg3 : FVec F S4096x16384 .f32) (main_arg4 : FVec F S1024x1024 .f32) (main_arg5 : FVec F S1024 .f32) (main_arg6 : FVec F S1x3 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x16384 .f32 := Host.absf main_arg3
  let main_cst_4 : FVec F S_ .f32 := constant S_ .f32 0x7F800000#32
  let main_v15 : FVec F S4096x16384 .f32 := broadcastInDim S4096x16384 ![] bcast_S_S4096x16384 main_cst_4
  let main_v16 : IVec S4096x16384 1 := cmpf .olt main_v14 main_v15
  fn_part1 (F := F) main_arg4 main_arg5 main_arg6 main_v13 main_v16
-- ==== Kernel.lean ====
abbrev S4096x1024 : Shape := ⟨2, ![4096, 1024]⟩
abbrev S16384x3 : Shape := ⟨2, ![16384, 3]⟩
abbrev S4096x4096 : Shape := ⟨2, ![4096, 4096]⟩
abbrev S4096x16384 : Shape := ⟨2, ![4096, 16384]⟩
abbrev S1024x1024 : Shape := ⟨2, ![1024, 1024]⟩
abbrev S1024 : Shape := ⟨1, ![1024]⟩
abbrev S1x3 : Shape := ⟨2, ![1, 3]⟩
abbrev S3x1 : Shape := ⟨2, ![3, 1]⟩
abbrev S16384x1 : Shape := ⟨2, ![16384, 1]⟩
abbrev S16384 : Shape := ⟨1, ![16384]⟩
abbrev S1x16384 : Shape := ⟨2, ![1, 16384]⟩
abbrev S1x1024 : Shape := ⟨2, ![1, 1024]⟩
abbrev S1024x2048 : Shape := ⟨2, ![1024, 2048]⟩
abbrev S1x2048 : Shape := ⟨2, ![1, 2048]⟩
abbrev S1024x4096 : Shape := ⟨2, ![1024, 4096]⟩

abbrev nBuf : Space → Nat
  | .hbm => 15
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S16384x3, .f32⟩
  | .hbm, ⟨2, _⟩ => ⟨S4096x4096, .f32⟩
  | .hbm, ⟨3, _⟩ => ⟨S4096x16384, .f32⟩
  | .hbm, ⟨4, _⟩ => ⟨S1024x1024, .f32⟩
  | .hbm, ⟨5, _⟩ => ⟨S1024, .f32⟩
  | .hbm, ⟨6, _⟩ => ⟨S1x3, .f32⟩
  | .hbm, ⟨7, _⟩ => ⟨S3x1, .f32⟩
  | .hbm, ⟨8, _⟩ => ⟨S16384x1, .f32⟩
  | .hbm, ⟨9, _⟩ => ⟨S16384, .f32⟩
  | .hbm, ⟨10, _⟩ => ⟨S1x16384, .f32⟩
  | .hbm, ⟨11, _⟩ => ⟨S1x1024, .f32⟩
  | .hbm, ⟨12, _⟩ => ⟨S4096x1024, .bf16⟩
  | .hbm, ⟨13, _⟩ => ⟨S4096x4096, .bf16⟩
  | .hbm, ⟨14, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S1x2048, .f32⟩
  | .local _ .vmem, ⟨10, _⟩ => ⟨S1x2048, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x4096, .bf16⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S1x3_S3x1_1_0 : S1x3.Transposes [1, 0] S3x1
  shapeCasts_S16384x1_S16384 : S16384x1.ShapeCasts S16384
  shapeCasts_S16384_S1x16384 : S16384.ShapeCasts S1x16384
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  iota_S1024x1024_d0_w32 : S1024x1024.Iotas .tc 32 [0]
  iota_S1024x1024_d1_w32 : S1024x1024.Iotas .tc 32 [1]
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S16384x3_S3x1_S16384x1_1_0_0_1_n_n_wf : DotDims.WF S16384x3 S3x1 S16384x1 [1] [0] [0] [1] [] []
  dot_S1024x1024_S1024x1024_S1024x1024_1_0_0_1_n_n_wf : DotDims.WF S1024x1024 S1024x1024 S1024x1024 [1] [0] [0] [1] [] []
  dot_S1024x2048_S1024x2048_S1024x1024_1_1_0_0_n_n_wf : DotDims.WF S1024x2048 S1024x2048 S1024x1024 [1] [1] [0] [0] [] []
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x16384.size a
  hwx1_0 : ∀ i : grid1.Coords, EltTy.bits .f32 = 32 ∨ (Rect.block (s := S4096x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x16384.size a
  hwx1_1 : ∀ i : grid1.Coords, EltTy.bits .f32 = 32 ∨ (Rect.block (s := S4096x16384) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x4096.size a
  hwx1_4 : ∀ i : grid1.Coords, EltTy.bits .bf16 = 32 ∨ (Rect.block (s := S4096x4096) S1024x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x4096.size a
  hwx2_0 : ∀ i : grid2.Coords, EltTy.bits .bf16 = 32 ∨ (Rect.block (s := S4096x4096) S1024x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x1024.size a
  hwx2_1 : ∀ i : grid2.Coords, EltTy.bits .bf16 = 32 ∨ (Rect.block (s := S4096x1024) S4096x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S16384x3_S3x1_S16384x1_1_0_0_1_n_n : DotDims S16384x3 S3x1 S16384x1 where
  lhsContracting := [1]
  rhsContracting := [0]
  lhsNonContracting := [0]
  rhsNonContracting := [1]
  lhsBatch := []
  rhsBatch := []
  wf := dot_S16384x3_S3x1_S16384x1_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v6) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4096x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S16384x3 : Shape := ⟨2, ![16384, 3]⟩
abbrev S4096x4096 : Shape := ⟨2, ![4096, 4096]⟩
abbrev S4096x16384 : Shape := ⟨2, ![4096, 16384]⟩
abbrev S1024x1024 : Shape := ⟨2, ![1024, 1024]⟩
abbrev S1024 : Shape := ⟨1, ![1024]⟩
abbrev S1x3 : Shape := ⟨2, ![1, 3]⟩
abbrev S3x1 : Shape := ⟨2, ![3, 1]⟩
abbrev S16384x1 : Shape := ⟨2, ![16384, 1]⟩
abbrev S16384 : Shape := ⟨1, ![16384]⟩
abbrev S1x16384 : Shape := ⟨2, ![1, 16384]⟩
abbrev S16384x4096 : Shape := ⟨2, ![16384, 4096]⟩
abbrev S_ : Shape := ⟨0, ![]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x3, .f32⟩
  | .hbm, ⟨2, _⟩ => ⟨S4096x4096, .f32⟩
  | .hbm, ⟨3, _⟩ => ⟨S4096x16384, .f32⟩
  | .hbm, ⟨4, _⟩ => ⟨S1024x1024, .f32⟩
  | .hbm, ⟨5, _⟩ => ⟨S1024, .f32⟩
  | .hbm, ⟨6, _⟩ => ⟨S1x3, .f32⟩
  | .hbm, ⟨7, _⟩ => ⟨S3x1, .f32⟩
  | .hbm, ⟨8, _⟩ => ⟨S16384x1, .f32⟩
  | .hbm, ⟨9, _⟩ => ⟨S16384, .f32⟩
  | .hbm, ⟨10, _⟩ => ⟨S1x16384, .f32⟩
  | .hbm, ⟨11, _⟩ => ⟨S4096x16384, .f32⟩
  | .hbm, ⟨12, _⟩ => ⟨S4096x16384, .f32⟩
  | .hbm, ⟨13, _⟩ => ⟨S16384x4096, .f32⟩
  | .hbm, ⟨14, _⟩ => ⟨S4096x4096, .f32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S1x3_S3x1_1_0 : S1x3.Transposes [1, 0] S3x1
  shapeCasts_S16384x1_S16384 : S16384x1.ShapeCasts S16384
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  transposes_S4096x16384_S16384x4096_1_0 : S4096x16384.Transposes [1, 0] S16384x4096
  bcast_S_S4096x4096 : S_.BroadcastsInDim S4096x4096 (![] : Fin 0 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S16384x3_S3x1_S16384x1_1_0_0_1_n_n_wf : DotDims.WF S16384x3 S3x1 S16384x1 [1] [0] [0] [1] [] []
  dot_S4096x16384_S16384x4096_S4096x4096_1_0_0_1_n_n_wf : DotDims.WF S4096x16384 S16384x4096 S4096x4096 [1] [0] [0] [1] [] []
  dot_S4096x1024_S1024x1024_S4096x1024_1_0_0_1_n_n_wf : DotDims.WF S4096x1024 S1024x1024 S4096x1024 [1] [0] [0] [1] [] []
  dot_S4096x4096_S4096x1024_S4096x1024_1_0_0_1_n_n_wf : DotDims.WF S4096x4096 S4096x1024 S4096x1024 [1] [0] [0] [1] [] []

variable [Facts₀]

def dot_S16384x3_S3x1_S16384x1_1_0_0_1_n_n : DotDims S16384x3 S3x1 S16384x1 where
  lhsContracting := [1]
  rhsContracting := [0]
  lhsNonContracting := [0]
  rhsNonContracting := [1]
  lhsBatch := []
  rhsBatch := []
  wf := dot_S16384x3_S3x1_S16384x1_1_0_0_1_n_n_wf
def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.R0.lean ====
/- Region 0 of the program: the pallas_call that multiplies the 1024-row blocks of one array by a whole
   1024x1024 array and stores the products, rounded to bf16, block by block. This module states, at any float
   model and at any buffer contents `V` found when the region is entered: each window's block at a grid point,
   what the body leaves in the output's staging buffer (its one whole-block store), the body's triple, the
   pipeline's proof data and the body obligation at every point. -/
import proofs.«131233_j10007273800446_2_alg».proof.Proof.Gen.Kernel.Launch
import proofs.«131233_j10007273800446_2_alg».proof.Proof.Gen.Kernel.Skeleton
import proofs.«131233_j10007273800446_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__hw_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there (the first point) or
    not (the later ones: its block index has not moved, and the body left the block in place). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024x1024 block: the one rectangle every access of the body goes through. -/
abbrev r0 : Rect S1024x1024 := Rect.unit (s := S1024x1024) ![0, 0] S1024x1024.size inb_S1024x1024_S1024x1024_0_0

/-! ## What the body leaves in the output window's buffer -/

/-- Window 2's staging buffer after the body, from the input windows' blocks: its one store as a piece. -/
def out0_2 (x0 x1 : Vec F S1024x1024 .f32) : Vec F S1024x1024 .bf16 :=
  View.canon [⟨r0, k0_pay1 (View.ld x0 r0) (View.ld x1 r0)⟩]

/-- The store's rectangle is the whole buffer, so it covers it. -/
theorem cover0_2 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The kernel body on whole staging memrefs, the inputs' at read contents `x0`, `x1` and the output's at anything,
    runs to the continuation holding the inputs' as they were and the output's at `out0_2` of the inputs'. The body
    also reads the output's buffer before it stores over the whole of it; what it reads there is not used. -/
theorem sound_kernel0 (c : Dev nD) (E : Set ℕ) (i : grid0.Coords)
    (arg0 : Memref sig .tc .vmem S1024x1024 .f32) (harg0 : arg0.IsWhole) (arg1 : Memref sig .tc .vmem S1024x1024 .f32) (harg1 : arg1.IsWhole)
    (arg2 : Memref sig .tc .vmem S1024x1024 .bf16) (harg2 : arg2.IsWhole)
    (x0 x1 : Vec F S1024x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__hw_kernel i arg0 harg0 arg1 harg1 arg2 harg2) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1a.lean ====
import proofs.«131233_j10007273800446_2_alg».proof.Proof.Gen.Kernel.Launch
import proofs.«131233_j10007273800446_2_alg».proof.Proof.Gen.Kernel.Skeleton
import proofs.«131233_j10007273800446_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! # Region 1: the accumulation over the contracted axis, the conditions of its two branches over the grid,
    and where its output window is idle -/

-- The contents of the core's buffers when the region is entered: the parameter every statement is made at.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first branch (the accumulator is reset): the position along the contracted grid axis is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (the output block is emitted): the position along the contracted grid axis is the last, 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last position of the contracted axis nothing is stored into the output block, -/
theorem idleAt1_4 : ∀ t : Fin cfg1.N, ¬cond1_1 (grid1.coords t) → cfg1.idle 4 (grid1.coords t) = true := by decide +kernel
/-- and it is not written back there; -/
theorem noFlush1_4 : ∀ t : Fin cfg1.N, ¬cond1_1 (grid1.coords t) → (cfg1.win 4).flush t = false := by decide +kernel
/-- at the last position it is stored. -/
theorem liveAt1_4 : ∀ t : Fin cfg1.N, cond1_1 (grid1.coords t) → cfg1.idle 4 (grid1.coords t) = false := by decide +kernel

/-! ## The staging memrefs at a point, the scratch -/

abbrev VO1_4 : View sig .tc .vmem S1024x1024 .bf16 := (Memref.whole cc1_stg4_0 : Memref sig .tc .vmem S1024x1024 .bf16).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
/-- The accumulator: a whole scoped buffer of the kernel's own, carried from one grid point to the next. -/
abbrev scM1 : Memref sig .tc .vmem S1024x1024 .f32 := Memref.whole cc1_scratch0
abbrev VS1 : View sig .tc .vmem S1024x1024 .f32 := scM1.view

/-- The scoped buffers no window of this region stages, with the accumulator named among them. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1, owns_whole]; try rfl

end Cert.Kernel.Hand

end
-- ==== Proof.K.R1A.lean ====
import proofs.«131233_j10007273800446_2_alg».proof.Proof.K.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The body at a point where the contraction starts (position 0 of the contracted grid axis): the accumulator,
    at anything, is first zeroed and then receives this point's partial product; nothing is stored into the
    output block, handed back as found. The pieces the accumulator ends with are what the run finds. -/
noncomputable def kernelRun1_A (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S1024x2048 .f32) (x1 : Vec F S1024x2048 .f32) (x2 : Vec F S1x2048 .f32) (x3 : Vec F S1024x1024 .f32) :
    Σ' (L4 : List (View.Piece (Elt F) S1024x1024 .bf16)), { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__adjA_kernel i arg3 harg3 arg4 harg4 arg5 harg5 arg6 harg6 arg7 harg7 arg8 harg8) K } := by
  refine ⟨[], ?_, fun xi4 E K => ?run⟩
  case run =>
    simp only [cc1__adjA_kernel_eq_skeleton]; unfold cc1__adjA_kernel_skel
    unfold owns
    iintro ⟨⟨%f0, %hf0, H0⟩, ⟨%f1, %hf1, H1⟩, ⟨%f2, %hf2, H2⟩, ⟨%f3, %hf3, H3⟩, ⟨%f4, %hf4, H4⟩, ⟨%d, %fs, %hfs, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.K.R1B.lean ====
import proofs.«131233_j10007273800446_2_alg».proof.Proof.K.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The body at a point in the middle of the contraction (positions 1 to 6 of the contracted grid axis): the
    accumulator, at what the point before left, receives this point's partial product; nothing is stored into the
    output block, handed back as found. -/
noncomputable def kernelRun1_B (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S1024x2048 .f32) (x1 : Vec F S1024x2048 .f32) (x2 : Vec F S1x2048 .f32) (x3 : Vec F S1024x1024 .f32) (xs0 : Vec F S1024x1024 .f32) :
    Σ' (L4 : List (View.Piece (Elt F) S1024x1024 .bf16)), { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__adjA_kernel i arg3 harg3 arg4 harg4 arg5 harg5 arg6 harg6 arg7 harg7 arg8 harg8) K } := by
  refine ⟨[], ?_, fun xi4 E K => ?run⟩
  case run =>
    simp only [cc1__adjA_kernel_eq_skeleton]; unfold cc1__adjA_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.K.R1C.lean ====
import proofs.«131233_j10007273800446_2_alg».proof.Proof.K.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The body at a point where the contraction ends (position 7 of the contracted grid axis): the accumulator, at
    what the point before left, receives this point's partial product, and the output block is stored whole from
    it: one on the global diagonal, the accumulated product elsewhere, times the mask block. -/
noncomputable def kernelRun1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S1024x2048 .f32) (x1 : Vec F S1024x2048 .f32) (x2 : Vec F S1x2048 .f32) (x3 : Vec F S1024x1024 .f32) (xs0 : Vec F S1024x1024 .f32) :
    Σ' (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__adjA_kernel i arg3 harg3 arg4 harg4 arg5 harg5 arg6 harg6 arg7 harg7 arg8 harg8) K } := by
  refine ⟨?_, ?_, fun E K => ?run⟩
  case run =>
    simp only [cc1__adjA_kernel_eq_skeleton]; unfold cc1__adjA_kernel_skel
    unfold owns
    iintro ⟨⟨%f0, %hf0, H0⟩, ⟨%f1, %hf1, H1⟩, ⟨%f2, %hf2, H2⟩, ⟨%f3, %hf3, H3⟩, ⟨%d4, %f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS

end Cert.Kernel.Hand

end
-- ==== Proof.K.R1.lean ====
import proofs.«131233_j10007273800446_2_alg».proof.Proof.K.R1A
import proofs.«131233_j10007273800446_2_alg».proof.Proof.K.R1B
import proofs.«131233_j10007273800446_2_alg».proof.Proof.K.R1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (V : (c : Dev nD) → (b : Ref sig .tc) → Buf (Elt F) ((c : Thread nD τ).loc b))

/-! # Region 1: what the accumulator and the output block hold point by point, the proof data, the body obligation -/

/-! ## The runs' pieces cover their buffers -/

theorem scover1_A (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i) (x0 : Vec F S1024x2048 .f32) (x1 : Vec F S1024x2048 .f32) (x2 : Vec F S1x2048 .f32) (x3 : Vec F S1024x1024 .f32) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y

/-- What the accumulator holds after a point that starts the contraction. -/
def sout1_A (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i) (x0 : Vec F S1024x2048 .f32) (x1 : Vec F S1024x2048 .f32) (x2 : Vec F S1x2048 .f32) (x3 : Vec F S1024x1024 .f32) : Vec F S1024x1024 .f32 :=
  VS1.read (Elt F) (VS1.writes (Elt F) VS1.junk (kernelRun1_A c i arg3 harg3 arg4 harg4 arg5 harg5 arg6 harg6 arg7 harg7 arg8 harg8 hc0 hc1 x0 x1 x2 x3).2.1)

theorem scover1_B (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i) (x0 : Vec F S1024x2048 .f32) (x1 : Vec F S1024x2048 .f32) (x2 : Vec F S1x2048 .f32) (x3 : Vec F S1024x1024 .f32) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y

/-- What the accumulator holds after a point in the middle of the contraction. -/
def sout1_B (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i) (x0 : Vec F S1024x2048 .f32) (x1 : Vec F S1024x2048 .f32) (x2 : Vec F S1x2048 .f32) (x3 : Vec F S1024x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 hc0 hc1 x0 x1 x2 x3 xs0).2.1)

theorem scover1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y

/-- What the accumulator holds after a point that ends the contraction, -/
def sout1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 hc0 hc1 x0 x1 x2 x3 xs0).2.1)

theorem cover1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y

/-- and what the output block's staging buffer holds there. -/
def out1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) : Vec F S1024x1024 .bf16 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Where nothing is stored into the output block its staging buffer's named contents are a placeholder nothing
    consults: there the block is neither written back nor read at the next point. -/
def out1_idle : Vec F S1024x1024 .bf16 := VO1_4.read (Elt F) VO1_4.junk

/-! ## Point by point -/

/-- THE ACCUMULATION: what the output block's staging buffer and the accumulator hold after the body at position
    `n` of the grid — by the position along the contracted axis, `n % 8`: 0 starts from nothing, 1 to 6 add to
    what the point before left, 7 adds and emits. -/
def outsAt1 (c : Dev nD) : (n : ℕ) → n < cfg1.N → Vec F S1024x1024 .bf16 × Vec F S1024x1024 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_idle, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_idle, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator named, the other scoped buffers and the generator register riding along -/

/-- The core's scoped buffers that are neither a staging buffer of this region nor its accumulator, at some contents each,
    and the generator register at some state: what this region's body never touches. -/
def PhiRest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

theorem PhiA1_split (c : Dev nD) : (Pipeline.ΦA spec1 c : sProp 𝕄) ⊢ iprop((∃ d, owns (c : Thread nD τ) scM1 fullShare d) ∗ PhiRest1 (F := F) c) := by
  rw [PhiA1_eq]; unfold PhiRest1
  iintro ⟨⟨H1, H2, H3, H4, H5, HS, H6, H7, H8, H9, H10, H11⟩, Hg⟩
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hg

theorem PhiA1_join (c : Dev nD) : iprop((∃ d, owns (c : Thread nD τ) scM1 fullShare d) ∗ PhiRest1 (F := F) c) ⊢ (Pipeline.ΦA spec1 c : sProp 𝕄) := by
  rw [PhiA1_eq]; unfold PhiRest1
  iintro ⟨HS, H1, H2, H3, H4, H5, H6, H7, H8, H9, H10, H11, Hg⟩
  isplitr [Hg]
  swap; · iexact Hg
  isplitl [H1]; · iexact H1
  isplitl [H2]; · iexact H2
  isplitl [H3]; · iexact H3
  isplitl [H4]; · iexact H4
  isplitl [H5]; · iexact H5
  isplitl [HS]; · iexact HS
  isplitl [H6]; · iexact H6
  isplitl [H7]; · iexact H7
  isplitl [H8]; · iexact H8
  isplitl [H9]; · iexact H9
  isplitl [H10]; · iexact H10
  iexact H11

/-- The invariant before position `n`: before the first point every scoped buffer at anything; afterwards the accumulator
    at what the point before left in it. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ PhiRest1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ PhiRest1 (F := F) c) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ PhiRest1 (F := F) c) := by
  cases n with
  | zero => exact absurd rfl hz
  | succ n => rfl

/-! ## The proof data -/

/-- Region 1's proof data on core `c`: the arrays as the region finds them; after the body each input's buffer at its
    block and the output's at `outsAt1`; the invariant `PhiS1`; nothing owed. The two windows that read one array
    (row blocks and column blocks of the same matrix) hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
/-- The body at any point: the inputs' buffers hold their blocks; the position along the contracted axis says which of
    the three runs applies; the invariant hands the body the accumulator at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 128 := lt_of_lt_of_eq t.isLt (show cfg1.N = 128 from N_1)
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split (F := F) c) $$ HΦ
      icases HΦ' with ⟨HS, HR⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR]
      · isplitl [HS]
        · unfold owns; iexists _; isplitr
          swap; · iexact HS
          ipureintro; exact View.read_writes_of_cover _ _ _ _ _ (scover1_C c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_B c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back every scoped buffer at some contents: the accumulator's are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine BIBase.Entails.trans ?_ (PhiA1_join (F := F) c)
  iintro ⟨HS, HR⟩
  isplitl [HS]
  · iexists _; iexact HS
  iexact HR

end Cert.Kernel.Hand

end
-- ==== Proof.K.R2.lean ====
/- Region 2 of the program: the pallas_call that multiplies the 1024-row blocks of a 4096x4096 bf16 array by a
   whole 4096x1024 bf16 array, adds a row vector to every row, and stores the f32 result block by block. This
   module states, at any float model and at any buffer contents `V` found when the region is entered: each
   window's block at a grid point, what the body leaves in the output's staging buffer (its one whole-block
   store), the body's triple, the pipeline's proof data and the body obligation at every point. -/
import proofs.«131233_j10007273800446_2_alg».proof.Proof.Gen.Kernel.Launch
import proofs.«131233_j10007273800446_2_alg».proof.Proof.Gen.Kernel.Skeleton
import proofs.«131233_j10007273800446_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, `cc2__out_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for ANY proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there (the first point) or
    not (the later ones: its block index has not moved, and the body left the block in place). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of input window 2, also fetched at the first point only. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of each window: the rectangles the body's accesses go through. -/
abbrev r2_0 : Rect S1024x4096 := Rect.unit (s := S1024x4096) ![0, 0] S1024x4096.size inb_S1024x4096_S1024x4096_0_0
abbrev r2_1 : Rect S4096x1024 := Rect.unit (s := S4096x1024) ![0, 0] S4096x1024.size inb_S4096x1024_S4096x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in the output window's buffer -/

/-- Window 3's staging buffer after the body, from the input windows' blocks: its one store as a piece. -/
def out2_3 (x0 : Vec F S1024x4096 .bf16) (x1 : Vec F S4096x1024 .bf16) (x2 : Vec F S1x1024 .f32) : Vec F S1024x1024 .f32 :=
  View.canon [⟨r2_3, k2_pay1 (View.ld x0 r2_0) (View.ld x1 r2_1) (View.ld x2 r2_2)⟩]

/-- The store's rectangle is the whole buffer, so it covers it. -/
theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

/-! ## The body's triple -/

set_option maxHeartbeats 1000000 in
/-- The kernel body on whole staging memrefs, the inputs' at read contents `x0`, `x1`, `x2` and the output's at
    anything, runs to the continuation holding the inputs' as they were and the output's at `out2_3` of the
    inputs'. The body also reads the output's buffer before it stores over the whole of it; what it reads there
    is not used. -/
theorem sound_kernel2 (c : Dev nD) (E : Set ℕ) (i : grid2.Coords)
    (arg0 : Memref sig .tc .vmem S1024x4096 .bf16) (harg0 : arg0.IsWhole) (arg1 : Memref sig .tc .vmem S4096x1024 .bf16) (harg1 : arg1.IsWhole)
    (arg2 : Memref sig .tc .vmem S1x1024 .f32) (harg2 : arg2.IsWhole) (arg3 : Memref sig .tc .vmem S1024x1024 .f32) (harg3 : arg3.IsWhole)
    (x0 : Vec F S1024x4096 .bf16) (x1 : Vec F S4096x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__out_kernel i arg0 harg0 arg1 harg1 arg2 harg2 arg3 harg3) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant is
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0`, `before2_1`, `before2_2`), so
    `sound_kernel2` applies; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«131233_j10007273800446_2_alg».proof.Proof.K.R0
import proofs.«131233_j10007273800446_2_alg».proof.Proof.K.R1
import proofs.«131233_j10007273800446_2_alg».proof.Proof.K.R2
import proofs.«131233_j10007273800446_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! # The run: @main's four items — the host operations, then the three regions — from the launch to the return

## What the core's buffers hold between the items -/

/-- After the host operations (region 0's entry). -/
abbrev W1 : Dev nD → Valuation τ sig (Elt F) := Gen.V1 m
abbrev V1 : (c : Dev nD) → (b : Ref sig .tc) → Buf (Elt F) ((c : Thread nD τ).loc b) := fun c b => W1 m c b

/-- After region 0: its output array at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its one output array at what its write-backs leave, every other buffer as entered (two of its input
    windows read one array, so the exit contents are stated at the output's buffer alone). -/
def W3 (c : Dev nD) : Valuation τ sig (Elt F) :=
  Function.update (W2 m c) (Proc.devRef .tc main_v6) ((dat1 (V2 m) c).arrAt 4 cfg1.N)
theorem W3_v6 (c : Dev nD) : W3 m c (Proc.devRef .tc main_v6) = (dat1 (V2 m) c).arrAt 4 cfg1.N := by
  unfold W3; exact Function.update_self ..
theorem W3_of_ne (c : Dev nD) (b : Ref sig .tc) (hb : b ≠ main_v6) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b

/-- After region 2. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := Gen.V1_of m c main_arg0 (by decide)
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := Gen.V1_of m c main_arg1 (by decide)
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := (W2_arr m c 1).trans (((dat0 (V1 m) c).arrAt_in 1 rfl _).trans (A_eq0 (V1 m) c 1))
    _ = m ((c : Thread nD τ).loc main_arg4) := Gen.V1_of m c main_arg4 (by decide)
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := Gen.V1_of m c main_arg5 (by decide)
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = m ((c : Thread nD τ).loc main_arg6) := Gen.V1_of m c main_arg6 (by decide)

/-- The result array at the end is what region 2's write-backs leave. -/
theorem W4_main_v7 (c : Dev nD) : W4 m c (Proc.devRef .tc main_v7) = (dat2 (V3 m) c).arrAt 3 cfg2.N := W4_arr m c 3

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: its arrays split out of the unscoped buffers at entry and put back at the exit
    contents; the generator register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit
    contents; the generator register into the region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### Region 1: two windows read one array -/

/-- The distinct buffers behind region 1's windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_arg3) ↦{fullShare} Vv main_arg3) ∗ (((c : Thread nD τ).loc main_v3) ↦{fullShare} Vv main_v3) ∗ (((c : Thread nD τ).loc main_arg2) ↦{fullShare} Vv main_arg2) ∗ (((c : Thread nD τ).loc main_v6) ↦{fullShare} Vv main_v6)) := by
  unfold Pipeline.arrBufs
  exact bigSep_eq_bigSepL_of_eq [main_arg3, main_v3, main_arg2, main_v6] (by decide) (by decide) _

/-- The four buffers behind region 1's five windows, each whole at the full share at contents `Vv`, deal out as the
    region's arrays: the matrix whose row blocks and column blocks two windows read goes to them in two halves. -/
theorem arrays1_of_bufs (c : Dev nD) (Vv : (b : Ref sig .tc) → Buf (Elt F) ((c : Thread nD τ).loc b))
    (Fw : (w : Fin cfg1.W) → Buf (Elt F) ((cfg1.win w).arr.view.loc (c : Thread nD τ))) (hF : ∀ w, Fw w = Vv (Pipeline.arrRef spec1 w)) :
    (Pipeline.arrBufs (Ix := Unit) (Name := ℕ) (U := UR sig nD τ) (Lvl := ℕ) spec1 c Vv : sProp 𝕄) ⊢ (dat1 (V2 m) c).arrays Fw := by
  obtain rfl : Fw = fun w => Vv (Pipeline.arrRef spec1 w) := funext hF
  rw [arrBufs1_eq]
  unfold Dat.arrays
  rw [bigSep_W1]
  rw [(arr_whole1 0).set_eq_univ, (arr_whole1 2).set_eq_univ, (arr_whole1 3).set_eq_univ, (arr_whole1 4).set_eq_univ]
  rw [show (dat1 (V2 m) c).share 0 = fullShare.left from rfl, show (dat1 (V2 m) c).share 1 = fullShare.right from rfl, show (dat1 (V2 m) c).share 2 = fullShare from rfl, show (dat1 (V2 m) c).share 3 = fullShare from rfl, show (dat1 (V2 m) c).share 4 = fullShare from rfl]
  iintro ⟨H3, Hv3, H2, H6⟩
  ihave H' := (pointsTo_share (PosShare.mem_left_op_right fullShare)).1 $$ H3
  icases H' with ⟨Hl, Hr⟩
  isplitl [Hl]; · iexact Hl
  isplitl [Hr]; · iexact Hr
  isplitl [Hv3]; · iexact Hv3
  isplitl [H2]; · iexact H2
  iexact H6

/-- And back. -/
theorem bufs_of_arrays1 (c : Dev nD) (Vv : (b : Ref sig .tc) → Buf (Elt F) ((c : Thread nD τ).loc b))
    (Fw : (w : Fin cfg1.W) → Buf (Elt F) ((cfg1.win w).arr.view.loc (c : Thread nD τ))) (hF : ∀ w, Fw w = Vv (Pipeline.arrRef spec1 w)) :
    (dat1 (V2 m) c).arrays Fw ⊢ (Pipeline.arrBufs (Ix := Unit) (Name := ℕ) (U := UR sig nD τ) (Lvl := ℕ) spec1 c Vv : sProp 𝕄) := by
  obtain rfl : Fw = fun w => Vv (Pipeline.arrRef spec1 w) := funext hF
  rw [arrBufs1_eq]
  unfold Dat.arrays
  rw [bigSep_W1]
  rw [(arr_whole1 0).set_eq_univ, (arr_whole1 2).set_eq_univ, (arr_whole1 3).set_eq_univ, (arr_whole1 4).set_eq_univ]
  rw [show (dat1 (V2 m) c).share 0 = fullShare.left from rfl, show (dat1 (V2 m) c).share 1 = fullShare.right from rfl, show (dat1 (V2 m) c).share 2 = fullShare from rfl, show (dat1 (V2 m) c).share 3 = fullShare from rfl, show (dat1 (V2 m) c).share 4 = fullShare from rfl]
  iintro ⟨Hl, Hr, Hv3, H2, H6⟩
  isplitl [Hl Hr]
  · iapply (pointsTo_share (PosShare.mem_left_op_right fullShare)).2
    isplitl [Hl]; · iexact Hl
    iexact Hr
  isplitl [Hv3]; · iexact Hv3
  isplitl [H2]; · iexact H2
  iexact H6

/-- At region 1's exit each of its arrays holds what the exit contents say: an input its entry contents, the output what
    the write-backs leave. -/
theorem hF1 (c : Dev nD) : ∀ w : Fin cfg1.W, (dat1 (V2 m) c).arrAt w cfg1.N = V3 m c (Pipeline.arrRef spec1 w)
  | ⟨0, _⟩ => ((dat1 (V2 m) c).arrAt_in 0 rfl _).trans ((A_eq1 (V2 m) c 0).trans (W3_of_ne m c main_arg3 (by decide)).symm)
  | ⟨1, _⟩ => ((dat1 (V2 m) c).arrAt_in 1 rfl _).trans ((A_eq1 (V2 m) c 1).trans (W3_of_ne m c main_arg3 (by decide)).symm)
  | ⟨2, _⟩ => ((dat1 (V2 m) c).arrAt_in 2 rfl _).trans ((A_eq1 (V2 m) c 2).trans (W3_of_ne m c main_v3 (by decide)).symm)
  | ⟨3, _⟩ => ((dat1 (V2 m) c).arrAt_in 3 rfl _).trans ((A_eq1 (V2 m) c 3).trans (W3_of_ne m c main_arg2 (by decide)).symm)
  | ⟨4, _⟩ => (W3_v6 m c).symm
theorem hrest1 (c : Dev nD) : ∀ b, b ∉ Finset.univ.image (Pipeline.arrRef spec1) → V3 m c b = V2 m c b :=
  fun b hb => W3_of_ne m c b fun e => hb (Finset.mem_image.mpr ⟨4, Finset.mem_univ _, e.symm⟩)

set_option backward.isDefEq.respectTransparency.types false in
/-- Region 1 over the thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays ((pdats m 1 c).arrAt · 0) ∗ Pipeline.unscopedRest spec1 c (V2 m c)) := by
      rw [Pipeline.unscopedBufs_split₀ (Pipeline.pin (pcfgs (F := F)) adm) 1 winFacts₀1.arr_unscoped c (V2 m c)]
      exact sep_mono (arrays1_of_bufs m c (V2 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c)) ⊢ (unscopedBufs c (V3 m c) : sProp 𝕄) := by
      rw [Pipeline.unscopedBufs_split₀ (Pipeline.pin (pcfgs (F := F)) adm) 1 winFacts₀1.arr_unscoped c (V3 m c)]
      refine sep_mono (bufs_of_arrays1 m c (V3 m c) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

abbrev segs : List (Pipeline.Seg (pcfgs (F := F)) adm (pdats m) () defs₀ 𝒱₀ L lv) :=
  [ .host (hseg hostOps0 hostOps0_sub hostOps0_fresh (Gen.V0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final state has the result array at what region 2's write-backs leave and every argument array as launched. -/
theorem run_main : θ_run defs (onTc (τ := τ) (main (F := F))) ⟨m, fun _ => 0, ρ⟩ (fun r => ∀ c : Dev nD,
      r.2.mem ((c.tc : Thread nD τ).loc main_v7) = (dat2 (V3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_main_v7 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c)⟩)

/-- info: 'Cert.Kernel.Hand.run_main' depends on axioms: [propext, Classical.choice, Quot.sound] -/
#guard_msgs in #print axioms run_main

end Cert.Kernel.Hand

end
-- ==== Proof.KI.R0.lean ====
/- Region 0 of the program: the pallas_call that multiplies the 1024-row blocks of one array by a whole
   1024x1024 array and stores the products, rounded to bf16, block by block. This module states, at any float
   model and at any buffer contents `V` found when the region is entered: each window's block at a grid point,
   what the body leaves in the output's staging buffer (its one whole-block store), the body's triple, the
   pipeline's proof data and the body obligation at every point. -/
import proofs.«131233_j10007273800446_2_alg».proof.Proof.Gen.KernelIdeal.Launch
import proofs.«131233_j10007273800446_2_alg».proof.Proof.Gen.KernelIdeal.Skeleton
import proofs.«131233_j10007273800446_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__hw_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there (the first point) or
    not (the later ones: its block index has not moved, and the body left the block in place). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024x1024 block: the one rectangle every access of the body goes through. -/
abbrev r0 : Rect S1024x1024 := Rect.unit (s := S1024x1024) ![0, 0] S1024x1024.size inb_S1024x1024_S1024x1024_0_0

/-! ## What the body leaves in the output window's buffer -/

/-- Window 2's staging buffer after the body, from the input windows' blocks: its one store as a piece. -/
def out0_2 (x0 x1 : Vec F S1024x1024 .f32) : Vec F S1024x1024 .bf16 :=
  View.canon [⟨r0, k0_pay1 (View.ld x0 r0) (View.ld x1 r0)⟩]

/-- The store's rectangle is the whole buffer, so it covers it. -/
theorem cover0_2 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The kernel body on whole staging memrefs, the inputs' at read contents `x0`, `x1` and the output's at anything,
    runs to the continuation holding the inputs' as they were and the output's at `out0_2` of the inputs'. The body
    also reads the output's buffer before it stores over the whole of it; what it reads there is not used. -/
theorem sound_kernel0 (c : Dev nD) (E : Set ℕ) (i : grid0.Coords)
    (arg0 : Memref sig .tc .vmem S1024x1024 .f32) (harg0 : arg0.IsWhole) (arg1 : Memref sig .tc .vmem S1024x1024 .f32) (harg1 : arg1.IsWhole)
    (arg2 : Memref sig .tc .vmem S1024x1024 .bf16) (harg2 : arg2.IsWhole)
    (x0 x1 : Vec F S1024x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__hw_kernel i arg0 harg0 arg1 harg1 arg2 harg2) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1a.lean ====
import proofs.«131233_j10007273800446_2_alg».proof.Proof.Gen.KernelIdeal.Launch
import proofs.«131233_j10007273800446_2_alg».proof.Proof.Gen.KernelIdeal.Skeleton
import proofs.«131233_j10007273800446_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! # Region 1: the accumulation over the contracted axis, the conditions of its two branches over the grid,
    and where its output window is idle -/

-- The contents of the core's buffers when the region is entered: the parameter every statement is made at.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first branch (the accumulator is reset): the position along the contracted grid axis is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (the output block is emitted): the position along the contracted grid axis is the last, 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last position of the contracted axis nothing is stored into the output block, -/
theorem idleAt1_4 : ∀ t : Fin cfg1.N, ¬cond1_1 (grid1.coords t) → cfg1.idle 4 (grid1.coords t) = true := by decide +kernel
/-- and it is not written back there; -/
theorem noFlush1_4 : ∀ t : Fin cfg1.N, ¬cond1_1 (grid1.coords t) → (cfg1.win 4).flush t = false := by decide +kernel
/-- at the last position it is stored. -/
theorem liveAt1_4 : ∀ t : Fin cfg1.N, cond1_1 (grid1.coords t) → cfg1.idle 4 (grid1.coords t) = false := by decide +kernel

/-! ## The staging memrefs at a point, the scratch -/

abbrev VO1_4 : View sig .tc .vmem S1024x1024 .bf16 := (Memref.whole cc1_stg4_0 : Memref sig .tc .vmem S1024x1024 .bf16).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
/-- The accumulator: a whole scoped buffer of the kernel's own, carried from one grid point to the next. -/
abbrev scM1 : Memref sig .tc .vmem S1024x1024 .f32 := Memref.whole cc1_scratch0
abbrev VS1 : View sig .tc .vmem S1024x1024 .f32 := scM1.view

/-- The scoped buffers no window of this region stages, with the accumulator named among them. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1, owns_whole]; try rfl

end Cert.KernelIdeal.Hand

end
-- ==== Proof.KI.R1A.lean ====
import proofs.«131233_j10007273800446_2_alg».proof.Proof.KI.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The body at a point where the contraction starts (position 0 of the contracted grid axis): the accumulator,
    at anything, is first zeroed and then receives this point's partial product; nothing is stored into the
    output block, handed back as found. The pieces the accumulator ends with are what the run finds. -/
noncomputable def kernelRun1_A (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S1024x2048 .f32) (x1 : Vec F S1024x2048 .f32) (x2 : Vec F S1x2048 .f32) (x3 : Vec F S1024x1024 .f32) :
    Σ' (L4 : List (View.Piece (Elt F) S1024x1024 .bf16)), { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__adjA_kernel i arg3 harg3 arg4 harg4 arg5 harg5 arg6 harg6 arg7 harg7 arg8 harg8) K } := by
  refine ⟨[], ?_, fun xi4 E K => ?run⟩
  case run =>
    simp only [cc1__adjA_kernel_eq_skeleton]; unfold cc1__adjA_kernel_skel
    unfold owns
    iintro ⟨⟨%f0, %hf0, H0⟩, ⟨%f1, %hf1, H1⟩, ⟨%f2, %hf2, H2⟩, ⟨%f3, %hf3, H3⟩, ⟨%f4, %hf4, H4⟩, ⟨%d, %fs, %hfs, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KI.R1B.lean ====
import proofs.«131233_j10007273800446_2_alg».proof.Proof.KI.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The body at a point in the middle of the contraction (positions 1 to 6 of the contracted grid axis): the
    accumulator, at what the point before left, receives this point's partial product; nothing is stored into the
    output block, handed back as found. -/
noncomputable def kernelRun1_B (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S1024x2048 .f32) (x1 : Vec F S1024x2048 .f32) (x2 : Vec F S1x2048 .f32) (x3 : Vec F S1024x1024 .f32) (xs0 : Vec F S1024x1024 .f32) :
    Σ' (L4 : List (View.Piece (Elt F) S1024x1024 .bf16)), { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__adjA_kernel i arg3 harg3 arg4 harg4 arg5 harg5 arg6 harg6 arg7 harg7 arg8 harg8) K } := by
  refine ⟨[], ?_, fun xi4 E K => ?run⟩
  case run =>
    simp only [cc1__adjA_kernel_eq_skeleton]; unfold cc1__adjA_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KI.R1C.lean ====
import proofs.«131233_j10007273800446_2_alg».proof.Proof.KI.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The body at a point where the contraction ends (position 7 of the contracted grid axis): the accumulator, at
    what the point before left, receives this point's partial product, and the output block is stored whole from
    it: one on the global diagonal, the accumulated product elsewhere, times the mask block. -/
noncomputable def kernelRun1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S1024x2048 .f32) (x1 : Vec F S1024x2048 .f32) (x2 : Vec F S1x2048 .f32) (x3 : Vec F S1024x1024 .f32) (xs0 : Vec F S1024x1024 .f32) :
    Σ' (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__adjA_kernel i arg3 harg3 arg4 harg4 arg5 harg5 arg6 harg6 arg7 harg7 arg8 harg8) K } := by
  refine ⟨?_, ?_, fun E K => ?run⟩
  case run =>
    simp only [cc1__adjA_kernel_eq_skeleton]; unfold cc1__adjA_kernel_skel
    unfold owns
    iintro ⟨⟨%f0, %hf0, H0⟩, ⟨%f1, %hf1, H1⟩, ⟨%f2, %hf2, H2⟩, ⟨%f3, %hf3, H3⟩, ⟨%d4, %f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS

end Cert.KernelIdeal.Hand

end
-- ==== Proof.KI.R1.lean ====
import proofs.«131233_j10007273800446_2_alg».proof.Proof.KI.R1A
import proofs.«131233_j10007273800446_2_alg».proof.Proof.KI.R1B
import proofs.«131233_j10007273800446_2_alg».proof.Proof.KI.R1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (V : (c : Dev nD) → (b : Ref sig .tc) → Buf (Elt F) ((c : Thread nD τ).loc b))

/-! # Region 1: what the accumulator and the output block hold point by point, the proof data, the body obligation -/

/-! ## The runs' pieces cover their buffers -/

theorem scover1_A (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i) (x0 : Vec F S1024x2048 .f32) (x1 : Vec F S1024x2048 .f32) (x2 : Vec F S1x2048 .f32) (x3 : Vec F S1024x1024 .f32) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y

/-- What the accumulator holds after a point that starts the contraction. -/
def sout1_A (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i) (x0 : Vec F S1024x2048 .f32) (x1 : Vec F S1024x2048 .f32) (x2 : Vec F S1x2048 .f32) (x3 : Vec F S1024x1024 .f32) : Vec F S1024x1024 .f32 :=
  VS1.read (Elt F) (VS1.writes (Elt F) VS1.junk (kernelRun1_A c i arg3 harg3 arg4 harg4 arg5 harg5 arg6 harg6 arg7 harg7 arg8 harg8 hc0 hc1 x0 x1 x2 x3).2.1)

theorem scover1_B (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i) (x0 : Vec F S1024x2048 .f32) (x1 : Vec F S1024x2048 .f32) (x2 : Vec F S1x2048 .f32) (x3 : Vec F S1024x1024 .f32) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y

/-- What the accumulator holds after a point in the middle of the contraction. -/
def sout1_B (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i) (x0 : Vec F S1024x2048 .f32) (x1 : Vec F S1024x2048 .f32) (x2 : Vec F S1x2048 .f32) (x3 : Vec F S1024x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 hc0 hc1 x0 x1 x2 x3 xs0).2.1)

theorem scover1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y

/-- What the accumulator holds after a point that ends the contraction, -/
def sout1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 hc0 hc1 x0 x1 x2 x3 xs0).2.1)

theorem cover1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y

/-- and what the output block's staging buffer holds there. -/
def out1_C (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) : Vec F S1024x1024 .bf16 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Where nothing is stored into the output block its staging buffer's named contents are a placeholder nothing
    consults: there the block is neither written back nor read at the next point. -/
def out1_idle : Vec F S1024x1024 .bf16 := VO1_4.read (Elt F) VO1_4.junk

/-! ## Point by point -/

/-- THE ACCUMULATION: what the output block's staging buffer and the accumulator hold after the body at position
    `n` of the grid — by the position along the contracted axis, `n % 8`: 0 starts from nothing, 1 to 6 add to
    what the point before left, 7 adds and emits. -/
def outsAt1 (c : Dev nD) : (n : ℕ) → n < cfg1.N → Vec F S1024x1024 .bf16 × Vec F S1024x1024 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_idle, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_idle, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator named, the other scoped buffers and the generator register riding along -/

/-- The core's scoped buffers that are neither a staging buffer of this region nor its accumulator, at some contents each,
    and the generator register at some state: what this region's body never touches. -/
def PhiRest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

theorem PhiA1_split (c : Dev nD) : (Pipeline.ΦA spec1 c : sProp 𝕄) ⊢ iprop((∃ d, owns (c : Thread nD τ) scM1 fullShare d) ∗ PhiRest1 (F := F) c) := by
  rw [PhiA1_eq]; unfold PhiRest1
  iintro ⟨⟨H1, H2, H3, H4, H5, HS, H6, H7, H8, H9, H10, H11⟩, Hg⟩
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hg

theorem PhiA1_join (c : Dev nD) : iprop((∃ d, owns (c : Thread nD τ) scM1 fullShare d) ∗ PhiRest1 (F := F) c) ⊢ (Pipeline.ΦA spec1 c : sProp 𝕄) := by
  rw [PhiA1_eq]; unfold PhiRest1
  iintro ⟨HS, H1, H2, H3, H4, H5, H6, H7, H8, H9, H10, H11, Hg⟩
  isplitr [Hg]
  swap; · iexact Hg
  isplitl [H1]; · iexact H1
  isplitl [H2]; · iexact H2
  isplitl [H3]; · iexact H3
  isplitl [H4]; · iexact H4
  isplitl [H5]; · iexact H5
  isplitl [HS]; · iexact HS
  isplitl [H6]; · iexact H6
  isplitl [H7]; · iexact H7
  isplitl [H8]; · iexact H8
  isplitl [H9]; · iexact H9
  isplitl [H10]; · iexact H10
  iexact H11

/-- The invariant before position `n`: before the first point every scoped buffer at anything; afterwards the accumulator
    at what the point before left in it. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ PhiRest1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ PhiRest1 (F := F) c) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ PhiRest1 (F := F) c) := by
  cases n with
  | zero => exact absurd rfl hz
  | succ n => rfl

/-! ## The proof data -/

/-- Region 1's proof data on core `c`: the arrays as the region finds them; after the body each input's buffer at its
    block and the output's at `outsAt1`; the invariant `PhiS1`; nothing owed. The two windows that read one array
    (row blocks and column blocks of the same matrix) hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
/-- The body at any point: the inputs' buffers hold their blocks; the position along the contracted axis says which of
    the three runs applies; the invariant hands the body the accumulator at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 128 := lt_of_lt_of_eq t.isLt (show cfg1.N = 128 from N_1)
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_split (F := F) c) $$ HΦ
      icases HΦ' with ⟨HS, HR⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_A c _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR]
      · isplitl [HS]
        · unfold owns; iexists _; isplitr
          swap; · iexact HS
          ipureintro; exact View.read_writes_of_cover _ _ _ _ _ (scover1_C c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR]
      · isplitl [HS]
        · unfold owns; iexists _; isplitr
          swap; · iexact HS
          ipureintro; exact View.read_writes_of_cover _ _ _ _ _ (scover1_B c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back every scoped buffer at some contents: the accumulator's are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine BIBase.Entails.trans ?_ (PhiA1_join (F := F) c)
  iintro ⟨HS, HR⟩
  isplitl [HS]
  · iexists _; iexact HS
  iexact HR

end Cert.KernelIdeal.Hand

end
-- ==== Proof.KI.R2.lean ====
/- Region 2 of the program: the pallas_call that multiplies the 1024-row blocks of a 4096x4096 bf16 array by a
   whole 4096x1024 bf16 array, adds a row vector to every row, and stores the f32 result block by block. This
   module states, at any float model and at any buffer contents `V` found when the region is entered: each
   window's block at a grid point, what the body leaves in the output's staging buffer (its one whole-block
   store), the body's triple, the pipeline's proof data and the body obligation at every point. -/
import proofs.«131233_j10007273800446_2_alg».proof.Proof.Gen.KernelIdeal.Launch
import proofs.«131233_j10007273800446_2_alg».proof.Proof.Gen.KernelIdeal.Skeleton
import proofs.«131233_j10007273800446_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, `cc2__out_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for ANY proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there (the first point) or
    not (the later ones: its block index has not moved, and the body left the block in place). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of input window 2, also fetched at the first point only. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of each window: the rectangles the body's accesses go through. -/
abbrev r2_0 : Rect S1024x4096 := Rect.unit (s := S1024x4096) ![0, 0] S1024x4096.size inb_S1024x4096_S1024x4096_0_0
abbrev r2_1 : Rect S4096x1024 := Rect.unit (s := S4096x1024) ![0, 0] S4096x1024.size inb_S4096x1024_S4096x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in the output window's buffer -/

/-- Window 3's staging buffer after the body, from the input windows' blocks: its one store as a piece. -/
def out2_3 (x0 : Vec F S1024x4096 .bf16) (x1 : Vec F S4096x1024 .bf16) (x2 : Vec F S1x1024 .f32) : Vec F S1024x1024 .f32 :=
  View.canon [⟨r2_3, k2_pay1 (View.ld x0 r2_0) (View.ld x1 r2_1) (View.ld x2 r2_2)⟩]

/-- The store's rectangle is the whole buffer, so it covers it. -/
theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

/-! ## The body's triple -/

set_option maxHeartbeats 1000000 in
/-- The kernel body on whole staging memrefs, the inputs' at read contents `x0`, `x1`, `x2` and the output's at
    anything, runs to the continuation holding the inputs' as they were and the output's at `out2_3` of the
    inputs'. The body also reads the output's buffer before it stores over the whole of it; what it reads there
    is not used. -/
theorem sound_kernel2 (c : Dev nD) (E : Set ℕ) (i : grid2.Coords)
    (arg0 : Memref sig .tc .vmem S1024x4096 .bf16) (harg0 : arg0.IsWhole) (arg1 : Memref sig .tc .vmem S4096x1024 .bf16) (harg1 : arg1.IsWhole)
    (arg2 : Memref sig .tc .vmem S1x1024 .f32) (harg2 : arg2.IsWhole) (arg3 : Memref sig .tc .vmem S1024x1024 .f32) (harg3 : arg3.IsWhole)
    (x0 : Vec F S1024x4096 .bf16) (x1 : Vec F S4096x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__out_kernel i arg0 harg0 arg1 harg1 arg2 harg2 arg3 harg3) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant is
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_0`, `before2_1`, `before2_2`), so
    `sound_kernel2` applies; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«131233_j10007273800446_2_alg».proof.Proof.KI.R0
import proofs.«131233_j10007273800446_2_alg».proof.Proof.KI.R1
import proofs.«131233_j10007273800446_2_alg».proof.Proof.KI.R2
import proofs.«131233_j10007273800446_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! # The run: @main's four items — the host operations, then the three regions — from the launch to the return

## What the core's buffers hold between the items -/

/-- After the host operations (region 0's entry). -/
abbrev W1 : Dev nD → Valuation τ sig (Elt F) := Gen.V1 m
abbrev V1 : (c : Dev nD) → (b : Ref sig .tc) → Buf (Elt F) ((c : Thread nD τ).loc b) := fun c b => W1 m c b

/-- After region 0: its output array at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its one output array at what its write-backs leave, every other buffer as entered (two of its input
    windows read one array, so the exit contents are stated at the output's buffer alone). -/
def W3 (c : Dev nD) : Valuation τ sig (Elt F) :=
  Function.update (W2 m c) (Proc.devRef .tc main_v6) ((dat1 (V2 m) c).arrAt 4 cfg1.N)
theorem W3_v6 (c : Dev nD) : W3 m c (Proc.devRef .tc main_v6) = (dat1 (V2 m) c).arrAt 4 cfg1.N := by
  unfold W3; exact Function.update_self ..
theorem W3_of_ne (c : Dev nD) (b : Ref sig .tc) (hb : b ≠ main_v6) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b

/-- After region 2. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := Gen.V1_of m c main_arg0 (by decide)
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := Gen.V1_of m c main_arg1 (by decide)
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := (W2_arr m c 1).trans (((dat0 (V1 m) c).arrAt_in 1 rfl _).trans (A_eq0 (V1 m) c 1))
    _ = m ((c : Thread nD τ).loc main_arg4) := Gen.V1_of m c main_arg4 (by decide)
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := Gen.V1_of m c main_arg5 (by decide)
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = m ((c : Thread nD τ).loc main_arg6) := Gen.V1_of m c main_arg6 (by decide)

/-- The result array at the end is what region 2's write-backs leave. -/
theorem W4_main_v7 (c : Dev nD) : W4 m c (Proc.devRef .tc main_v7) = (dat2 (V3 m) c).arrAt 3 cfg2.N := W4_arr m c 3

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: its arrays split out of the unscoped buffers at entry and put back at the exit
    contents; the generator register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit
    contents; the generator register into the region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### Region 1: two windows read one array -/

/-- The distinct buffers behind region 1's windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_arg3) ↦{fullShare} Vv main_arg3) ∗ (((c : Thread nD τ).loc main_v3) ↦{fullShare} Vv main_v3) ∗ (((c : Thread nD τ).loc main_arg2) ↦{fullShare} Vv main_arg2) ∗ (((c : Thread nD τ).loc main_v6) ↦{fullShare} Vv main_v6)) := by
  unfold Pipeline.arrBufs
  exact bigSep_eq_bigSepL_of_eq [main_arg3, main_v3, main_arg2, main_v6] (by decide) (by decide) _

/-- The four buffers behind region 1's five windows, each whole at the full share at contents `Vv`, deal out as the
    region's arrays: the matrix whose row blocks and column blocks two windows read goes to them in two halves. -/
theorem arrays1_of_bufs (c : Dev nD) (Vv : (b : Ref sig .tc) → Buf (Elt F) ((c : Thread nD τ).loc b))
    (Fw : (w : Fin cfg1.W) → Buf (Elt F) ((cfg1.win w).arr.view.loc (c : Thread nD τ))) (hF : ∀ w, Fw w = Vv (Pipeline.arrRef spec1 w)) :
    (Pipeline.arrBufs (Ix := Unit) (Name := ℕ) (U := UR sig nD τ) (Lvl := ℕ) spec1 c Vv : sProp 𝕄) ⊢ (dat1 (V2 m) c).arrays Fw := by
  obtain rfl : Fw = fun w => Vv (Pipeline.arrRef spec1 w) := funext hF
  rw [arrBufs1_eq]
  unfold Dat.arrays
  rw [bigSep_W1]
  rw [(arr_whole1 0).set_eq_univ, (arr_whole1 2).set_eq_univ, (arr_whole1 3).set_eq_univ, (arr_whole1 4).set_eq_univ]
  rw [show (dat1 (V2 m) c).share 0 = fullShare.left from rfl, show (dat1 (V2 m) c).share 1 = fullShare.right from rfl, show (dat1 (V2 m) c).share 2 = fullShare from rfl, show (dat1 (V2 m) c).share 3 = fullShare from rfl, show (dat1 (V2 m) c).share 4 = fullShare from rfl]
  iintro ⟨H3, Hv3, H2, H6⟩
  ihave H' := (pointsTo_share (PosShare.mem_left_op_right fullShare)).1 $$ H3
  icases H' with ⟨Hl, Hr⟩
  isplitl [Hl]; · iexact Hl
  isplitl [Hr]; · iexact Hr
  isplitl [Hv3]; · iexact Hv3
  isplitl [H2]; · iexact H2
  iexact H6

/-- And back. -/
theorem bufs_of_arrays1 (c : Dev nD) (Vv : (b : Ref sig .tc) → Buf (Elt F) ((c : Thread nD τ).loc b))
    (Fw : (w : Fin cfg1.W) → Buf (Elt F) ((cfg1.win w).arr.view.loc (c : Thread nD τ))) (hF : ∀ w, Fw w = Vv (Pipeline.arrRef spec1 w)) :
    (dat1 (V2 m) c).arrays Fw ⊢ (Pipeline.arrBufs (Ix := Unit) (Name := ℕ) (U := UR sig nD τ) (Lvl := ℕ) spec1 c Vv : sProp 𝕄) := by
  obtain rfl : Fw = fun w => Vv (Pipeline.arrRef spec1 w) := funext hF
  rw [arrBufs1_eq]
  unfold Dat.arrays
  rw [bigSep_W1]
  rw [(arr_whole1 0).set_eq_univ, (arr_whole1 2).set_eq_univ, (arr_whole1 3).set_eq_univ, (arr_whole1 4).set_eq_univ]
  rw [show (dat1 (V2 m) c).share 0 = fullShare.left from rfl, show (dat1 (V2 m) c).share 1 = fullShare.right from rfl, show (dat1 (V2 m) c).share 2 = fullShare from rfl, show (dat1 (V2 m) c).share 3 = fullShare from rfl, show (dat1 (V2 m) c).share 4 = fullShare from rfl]
  iintro ⟨Hl, Hr, Hv3, H2, H6⟩
  isplitl [Hl Hr]
  · iapply (pointsTo_share (PosShare.mem_left_op_right fullShare)).2
    isplitl [Hl]; · iexact Hl
    iexact Hr
  isplitl [Hv3]; · iexact Hv3
  isplitl [H2]; · iexact H2
  iexact H6

/-- At region 1's exit each of its arrays holds what the exit contents say: an input its entry contents, the output what
    the write-backs leave. -/
theorem hF1 (c : Dev nD) : ∀ w : Fin cfg1.W, (dat1 (V2 m) c).arrAt w cfg1.N = V3 m c (Pipeline.arrRef spec1 w)
  | ⟨0, _⟩ => ((dat1 (V2 m) c).arrAt_in 0 rfl _).trans ((A_eq1 (V2 m) c 0).trans (W3_of_ne m c main_arg3 (by decide)).symm)
  | ⟨1, _⟩ => ((dat1 (V2 m) c).arrAt_in 1 rfl _).trans ((A_eq1 (V2 m) c 1).trans (W3_of_ne m c main_arg3 (by decide)).symm)
  | ⟨2, _⟩ => ((dat1 (V2 m) c).arrAt_in 2 rfl _).trans ((A_eq1 (V2 m) c 2).trans (W3_of_ne m c main_v3 (by decide)).symm)
  | ⟨3, _⟩ => ((dat1 (V2 m) c).arrAt_in 3 rfl _).trans ((A_eq1 (V2 m) c 3).trans (W3_of_ne m c main_arg2 (by decide)).symm)
  | ⟨4, _⟩ => (W3_v6 m c).symm
theorem hrest1 (c : Dev nD) : ∀ b, b ∉ Finset.univ.image (Pipeline.arrRef spec1) → V3 m c b = V2 m c b :=
  fun b hb => W3_of_ne m c b fun e => hb (Finset.mem_image.mpr ⟨4, Finset.mem_univ _, e.symm⟩)

set_option backward.isDefEq.respectTransparency.types false in
/-- Region 1 over the thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays ((pdats m 1 c).arrAt · 0) ∗ Pipeline.unscopedRest spec1 c (V2 m c)) := by
      rw [Pipeline.unscopedBufs_split₀ (Pipeline.pin (pcfgs (F := F)) adm) 1 winFacts₀1.arr_unscoped c (V2 m c)]
      exact sep_mono (arrays1_of_bufs m c (V2 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c)) ⊢ (unscopedBufs c (V3 m c) : sProp 𝕄) := by
      rw [Pipeline.unscopedBufs_split₀ (Pipeline.pin (pcfgs (F := F)) adm) 1 winFacts₀1.arr_unscoped c (V3 m c)]
      refine sep_mono (bufs_of_arrays1 m c (V3 m c) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

abbrev segs : List (Pipeline.Seg (pcfgs (F := F)) adm (pdats m) () defs₀ 𝒱₀ L lv) :=
  [ .host (hseg hostOps0 hostOps0_sub hostOps0_fresh (Gen.V0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final state has the result array at what region 2's write-backs leave and every argument array as launched. -/
theorem run_main : θ_run defs (onTc (τ := τ) (main (F := F))) ⟨m, fun _ => 0, ρ⟩ (fun r => ∀ c : Dev nD,
      r.2.mem ((c.tc : Thread nD τ).loc main_v7) = (dat2 (V3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_main_v7 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c)⟩)

/-- info: 'Cert.KernelIdeal.Hand.run_main' depends on axioms: [propext, Classical.choice, Quot.sound] -/
#guard_msgs in #print axioms run_main

end Cert.KernelIdeal.Hand

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KI.Val0.lean ====
/- What region 0 leaves in its output array, on the extended reals: the product of the 4096x1024 array and the
   1024x1024 array the region reads. The body's stored value at an entry is the sum over the contracted axis of
   the products of the two loaded blocks' entries (the roundings to bf16 are the identity here); the first
   input's and the output's blocks at grid point t are block row t of their arrays and the second input's block
   is its whole array, so what point t writes back is block row t of the product; the four block rows cover the
   output array. -/
import proofs.«131233_j10007273800446_2_alg».proof.Proof.KI.R0
import proofs.«131233_j10007273800446_2_alg».proof.Proof.LibPlainMatmul
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry -/

/-- Entry (p, q) of what the body stores: the two loaded blocks' product there. The roundings to bf16, before
    and after the product, are the identity on the extended reals, and the accumulator is the zero splat. -/
theorem pay0_apply (x0 x1 : Vec Ideal S1024x1024 .f32) (p q : Fin 1024) :
    k0_pay1 x0 x1 (ix2 p q) = ∑ k : Fin 1024, x0 (ix2 p k) * x1 (ix2 k q) := by
  unfold k0_pay1
  exact Cert.PlainMatmul.matmul_zero_apply dot_S1024x1024_S1024x1024_S1024x1024_1_0_0_1_n_n_wf none
    (truncf .bf16 x0 bitsLt_bf16_f32) (truncf .bf16 x1 bitsLt_bf16_f32) p q

/-! ## The result array as one function of the two arrays the region reads -/

/-- The product of a 4096x1024 array by a 1024x1024 array, entry by entry. -/
def G0 (a0 : S4096x1024.Idx → EReal) (a1 : S1024x1024.Idx → EReal) : S4096x1024.Idx → EReal :=
  fun i => ∑ k : Fin 1024, a0 (ix2 (i 0) k) * a1 (ix2 k (i 1))

/-- The product at row `r`, column `q`. -/
theorem G0_apply (a0 : S4096x1024.Idx → EReal) (a1 : S1024x1024.Idx → EReal) (r : Fin 4096) (q : Fin 1024) :
    G0 a0 a1 (ix2 r q) = ∑ k : Fin 1024, a0 (ix2 r k) * a1 (ix2 k q) := rfl

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: at point `t` the first input's and the output's blocks are block
    row `t`, the second input's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first input's block at point `t` is rows `1024 t … 1024 t + 1023` of its array. -/
theorem iblk0_0_apply (c : Dev nD) (t : Fin cfg0.N) (p k : Fin 1024) (i : S4096x1024.Idx)
    (h0 : (i 0).val = 1024 * t.val + p.val) (h1 : (i 1).val = k.val) :
    (iblk0 V c 0 t : Vec Ideal S1024x1024 .f32) (ix2 p k) = (V c main_arg0 : S4096x1024.Idx → EReal) i := by
  obtain ⟨e0, e1, -, -, -, -⟩ := idx_facts0 t
  unfold iblk0
  rw [View.read_apply]
  show (V c main_arg0 : S4096x1024.Idx → EReal) _ = _
  refine congrArg _ (funext fun a => Fin.ext ?_)
  match a with
  | ⟨0, _⟩ => show win0_0.index t (0 : Fin 2) * 1024 + 1 * p.val = (i 0).val; rw [e0, h0]; omega
  | ⟨1, _⟩ => show win0_0.index t (1 : Fin 2) * 1024 + 1 * k.val = (i 1).val; rw [e1, h1]; omega

/-- The second input's block at every point is its whole array. -/
theorem iblk0_1_apply (c : Dev nD) (t : Fin cfg0.N) (k q : Fin 1024) :
    (iblk0 V c 1 t : Vec Ideal S1024x1024 .f32) (ix2 k q) = (V c main_arg4 : S1024x1024.Idx → EReal) (ix2 k q) := by
  obtain ⟨-, -, e2, e3, -, -⟩ := idx_facts0 t
  unfold iblk0
  rw [View.read_apply]
  show (V c main_arg4 : S1024x1024.Idx → EReal) _ = _
  refine congrArg _ (funext fun a => Fin.ext ?_)
  match a with
  | ⟨0, _⟩ => show win0_1.index t (0 : Fin 2) * 1024 + 1 * k.val = k.val; rw [e2]; omega
  | ⟨1, _⟩ => show win0_1.index t (1 : Fin 2) * 1024 + 1 * q.val = q.val; rw [e3]; omega

/-- What point `t` writes back is block `t` of the product of the two arrays as the region finds them. -/
theorem flushed0_eq (c : Dev nD) (t : Fin cfg0.N) :
    (dat0 (F := Ideal) V c).flushed 2 t
      = ((cfg0.win 2).blk t).view.read (Elt Ideal) (G0 (V c main_arg0) (V c main_arg4)) := by
  show (cfg0.win 2).cut (grid0.coords t) ((dat0 V c).after 2 t) = _
  rw [after0_2]
  unfold out0_2
  rw [View.canon_unit_zero hz0]
  simp only [View.ld_unit_zero (S := S1024x1024) hz0]
  obtain ⟨-, -, -, -, e4, e5⟩ := idx_facts0 t
  funext j
  obtain ⟨p, q, rfl⟩ : ∃ (p q : Fin 1024), j = ix2 p q := ⟨j 0, j 1, eq_ix2 j⟩
  show k0_pay1 (iblk0 V c 0 t) (iblk0 V c 1 t) (ix2 p q) = G0 (V c main_arg0) (V c main_arg4) (((cfg0.win 2).blk t).view.emb (ix2 p q))
  rw [pay0_apply]
  unfold G0
  refine Finset.sum_congr rfl fun k _ => ?_
  have hr : ((((cfg0.win 2).blk t).view.emb (ix2 p q) : S4096x1024.Idx) 0).val = 1024 * t.val + p.val := by
    show win0_2.index t (0 : Fin 2) * 1024 + 1 * p.val = _; rw [e4]; omega
  have hc : ((((cfg0.win 2).blk t).view.emb (ix2 p q) : S4096x1024.Idx) 1).val = q.val := by
    show win0_2.index t (1 : Fin 2) * 1024 + 1 * q.val = _; rw [e5]; omega
  rw [iblk0_0_apply V c t p k (ix2 ((((cfg0.win 2).blk t).view.emb (ix2 p q) : S4096x1024.Idx) 0) k) hr rfl,
    iblk0_1_apply V c t k q]
  refine congrArg _ (congrArg _ (funext fun a => Fin.ext ?_))
  match a with
  | ⟨0, _⟩ => rfl
  | ⟨1, _⟩ => exact hc.symm

/-- An index of the output's array is in point `t`'s block iff each coordinate is in the block's range. -/
theorem mem_blk0 (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v5).slice (win0_2.rect t)).set ↔ _
  rw [View.set_slice_whole, Rect.mem_set_unit]
  exact Iff.rfl

/-- Every index of the output's array is in the block of the point its row falls in. -/
theorem cover0 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : cfg0.N = 4 := N_0
  refine ⟨⟨(i 0).val / 1024, by rw [hN]; omega⟩, flush0_2 _, ?_⟩
  rw [mem_blk0]
  obtain ⟨-, -, -, -, e4, e5⟩ := idx_facts0 ⟨(i 0).val / 1024, by rw [hN]; omega⟩
  intro a
  match a with
  | ⟨0, _⟩ => show win0_2.index _ (0 : Fin 2) * 1024 ≤ (i 0).val ∧ (i 0).val < win0_2.index _ (0 : Fin 2) * 1024 + 1024; rw [e4]; show (i 0).val / 1024 * 1024 ≤ (i 0).val ∧ (i 0).val < (i 0).val / 1024 * 1024 + 1024; omega
  | ⟨1, _⟩ => show win0_2.index _ (1 : Fin 2) * 1024 ≤ (i 1).val ∧ (i 1).val < win0_2.index _ (1 : Fin 2) * 1024 + 1024; rw [e5]; omega

/-- THE ARRAY after region 0: the product of the two arrays the region reads, as it finds them. -/
theorem final0 (c : Dev nD) :
    (dat0 (F := Ideal) V c).arrAt 2 cfg0.N = G0 (V c main_arg0) (V c main_arg4) :=
  (dat0 (F := Ideal) V c).arrAt_eq_of_cover 2 (G0 (V c main_arg0) (V c main_arg4)) (fun t _ => flushed0_eq V c t) cover0

end Cert.KernelIdeal.Hand

end
-- ==== Proof.KI.Val1a.lean ====
/-
  Region 1, what each grid point leaves in its buffers, as the body's payloads of the blocks it loaded.

  At every point the accumulator receives acc + (T_i · w) · T_jᵀ over this point's 2048 columns (the second payload) of
  what it held before: the zero block at the first position of the contracted axis (stored there, then read back),
  what the point before left otherwise. At the last position the output block is stored from the third payload of the
  accumulator just written (read back) and the mask block. Each buffer is written by stores of its whole rectangle, so
  what it holds afterwards is the last store's payload, and a load of a whole buffer reads the buffer's contents.
-/
import proofs.«131233_j10007273800446_2_alg».proof.Proof.KI.R1
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Cert.KernelIdeal Cert.KernelIdeal.Gen

/-- The zero offset of a whole rectangle of a rank-2 buffer. -/
theorem hz1 : (![0, 0] : Fin 2 → Nat) = fun _ => 0 := funext fun a => by fin_cases a <;> rfl

/-- In the middle of the contraction the accumulator, holding `xs0`, receives the second payload of the three input
    blocks and `xs0`. -/
theorem sout1_B_eq (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i) (x0 : Vec F S1024x2048 .f32) (x1 : Vec F S1024x2048 .f32) (x2 : Vec F S1x2048 .f32) (x3 : Vec F S1024x1024 .f32) (xs0 : Vec F S1024x1024 .f32) :
    sout1_B c i arg3 harg3 arg4 harg4 arg5 harg5 arg6 harg6 arg7 harg7 arg8 harg8 hc0 hc1 x0 x1 x2 x3 xs0 = k1_pay2 x0 x2 x1 xs0 := by
  unfold sout1_B
  rw [View.read_writes_eq_canon _ _ _ (scover1_B c i arg3 harg3 arg4 harg4 arg5 harg5 arg6 harg6 arg7 harg7 arg8 harg8 hc0 hc1 x0 x1 x2 x3 xs0)]
  unfold kernelRun1_B
  dsimp only
  rw [View.canon_unit_zero hz1]
  simp only [View.readAt_eq_ld, harg3.read_unread, harg4.read_unread, harg5.read_unread, harg6.read_unread, harg8.read_unread,
    View.ld_unit_zero (S := S1024x2048) hz1, View.ld_unit_zero (S := S1x2048) hz1, View.ld_unit_zero (S := S1024x1024) hz1]

/-- At the start of the contraction the accumulator is first set to the zero block (the first payload), read back, and
    receives the second payload of the three input blocks and that zero block. -/
theorem sout1_A_eq (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i) (x0 : Vec F S1024x2048 .f32) (x1 : Vec F S1024x2048 .f32) (x2 : Vec F S1x2048 .f32) (x3 : Vec F S1024x1024 .f32) :
    sout1_A c i arg3 harg3 arg4 harg4 arg5 harg5 arg6 harg6 arg7 harg7 arg8 harg8 hc0 hc1 x0 x1 x2 x3 = k1_pay2 x0 x2 x1 (k1_pay1 (F := F)) := by
  unfold sout1_A
  rw [View.read_writes_eq_canon _ _ _ (scover1_A c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, harg5.read_unread, harg6.read_unread, harg8.read_unread,
    View.ld_unit_zero (S := S1024x2048) hz1, View.ld_unit_zero (S := S1x2048) hz1, View.ld_unit_zero (S := S1024x1024) hz1]

/-- At the end of the contraction the accumulator receives the second payload as in the middle, -/
theorem sout1_C_eq (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) :
    sout1_C c i arg3 harg3 arg4 harg4 arg5 harg5 arg6 harg6 arg7 harg7 arg8 harg8 hc0 hc1 x0 x1 x2 x3 xs0 = k1_pay2 x0 x2 x1 xs0 := by
  unfold sout1_C
  rw [View.read_writes_eq_canon _ _ _ (scover1_C c i arg3 harg3 arg4 harg4 arg5 harg5 arg6 harg6 arg7 harg7 arg8 harg8 hc0 hc1 x0 x1 x2 x3 xs0)]
  unfold kernelRun1_C
  dsimp only
  sl_unfold_words
  rw [View.canon_unit_zero hz1]
  simp only [View.readAt_eq_ld, harg3.read_unread, harg4.read_unread, harg5.read_unread, harg6.read_unread, harg8.read_unread,
    View.ld_unit_zero (S := S1024x2048) hz1, View.ld_unit_zero (S := S1x2048) hz1, View.ld_unit_zero (S := S1024x1024) hz1]

/-- and the output block is stored from the third payload of the accumulator just written and the mask block. -/
theorem out1_C_eq (c : Dev nD) (i : grid1.Coords) (arg3 : Memref sig .tc .vmem S1024x2048 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i) (x0 : Vec F S1024x2048 .f32) (x1 : Vec F S1024x2048 .f32) (x2 : Vec F S1x2048 .f32) (x3 : Vec F S1024x1024 .f32) (xs0 : Vec F S1024x1024 .f32) :
    out1_C c i arg3 harg3 arg4 harg4 arg5 harg5 arg6 harg6 arg7 harg7 arg8 harg8 hc0 hc1 x0 x1 x2 x3 xs0 = k1_pay3 i (k1_pay2 x0 x2 x1 xs0) x3 := by
  unfold out1_C
  rw [View.read_writes_eq_canon _ _ _ (cover1_C c i arg3 harg3 arg4 harg4 arg5 harg5 arg6 harg6 arg7 harg7 arg8 harg8 hc0 hc1 x0 x1 x2 x3 xs0)]
  unfold kernelRun1_C
  dsimp only
  sl_unfold_words
  rw [View.canon_unit_zero hz1, View.readCov_unit_zero (S := S1024x1024) _ hz1]
  simp only [View.readAt_eq_ld, harg3.read_unread, harg4.read_unread, harg5.read_unread, harg6.read_unread, harg8.read_unread,
    View.ld_unit_zero (S := S1024x2048) hz1, View.ld_unit_zero (S := S1x2048) hz1, View.ld_unit_zero (S := S1024x1024) hz1]

end Cert.KernelIdeal.Hand

end
-- ==== Proof.KI.Val1b.lean ====
/-
  Region 1, the accumulation point by point, as the body's payloads.

  After the point at position 0 of the contracted axis the accumulator holds the second payload of that point's three
  input blocks and the zero block; after every later position, the second payload of that point's blocks and what the
  point before left; and after the last position the output block's staging buffer holds the third payload of the
  accumulator just written and the mask's block.
-/
import proofs.«131233_j10007273800446_2_alg».proof.Proof.KI.Val1a

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Cert.KernelIdeal Cert.KernelIdeal.Gen

variable (V : (c : Dev nD) → (b : Ref sig .tc) → Buf (Elt F) ((c : Thread nD τ).loc b))

/-- The accumulator after a point that starts the contraction. -/
theorem acc1_A (c : Dev nD) (t : Fin cfg1.N) (h0 : t.val % 8 = 0) (h1 : ¬t.val % 8 = 7) :
    (outsAt1 V c t.val t.isLt).2 = k1_pay2 (iblk1 V c 0 t) (iblk1 V c 2 t) (iblk1 V c 1 t) (k1_pay1 (F := F)) := by
  rw [outsAt1_A V c t h0 h1]
  dsimp only
  exact sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)

/-- The accumulator after a point in the middle of the contraction. -/
theorem acc1_B (c : Dev nD) (t : Fin cfg1.N) (h0 : ¬t.val % 8 = 0) (h1 : ¬t.val % 8 = 7) :
    (outsAt1 V c t.val t.isLt).2
      = k1_pay2 (iblk1 V c 0 t) (iblk1 V c 2 t) (iblk1 V c 1 t) (outsAt1 V c (t.val - 1) (Nat.lt_of_le_of_lt (Nat.sub_le _ _) t.isLt)).2 := by
  rw [outsAt1_B V c t h0 h1]
  dsimp only
  exact sout1_B_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- The accumulator after a point that ends the contraction, -/
theorem acc1_C (c : Dev nD) (t : Fin cfg1.N) (h0 : ¬t.val % 8 = 0) (h1 : t.val % 8 = 7) :
    (outsAt1 V c t.val t.isLt).2
      = k1_pay2 (iblk1 V c 0 t) (iblk1 V c 2 t) (iblk1 V c 1 t) (outsAt1 V c (t.val - 1) (Nat.lt_of_le_of_lt (Nat.sub_le _ _) t.isLt)).2 := by
  rw [outsAt1_C V c t h0 h1]
  dsimp only
  exact sout1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

/-- and the output block's staging buffer there. -/
theorem outb1_C (c : Dev nD) (t : Fin cfg1.N) (h0 : ¬t.val % 8 = 0) (h1 : t.val % 8 = 7) :
    (outsAt1 V c t.val t.isLt).1
      = k1_pay3 (grid1.coords t) (k1_pay2 (iblk1 V c 0 t) (iblk1 V c 2 t) (iblk1 V c 1 t) (outsAt1 V c (t.val - 1) (Nat.lt_of_le_of_lt (Nat.sub_le _ _) t.isLt)).2) (iblk1 V c 3 t) := by
  rw [outsAt1_C V c t h0 h1]
  dsimp only
  exact out1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

end Cert.KernelIdeal.Hand

end
-- ==== Proof.KI.Val1c.lean ====
/-
  Region 1, where each window's block sits in its array, by coordinates.

  The grid has 4 × 4 × 8 points, the last axis (the position along the contracted axis) running fastest: point t has row
  block t / 32, column block (t / 8) % 4 and position t % 8. Entry (p, k) of a window's block at point t is the array's
  entry at block index × block size + (p, k) on each axis: rows of T from row block t / 32 (window 0) or from column
  block (t / 8) % 4 (window 1), columns from position t % 8; the weight row's columns from position t % 8; the mask's
  and the output's block (t / 32, (t / 8) % 4).
-/
import proofs.«131233_j10007273800446_2_alg».proof.Proof.KI.R1a
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Cert.KernelIdeal Cert.KernelIdeal.Gen

variable (V : (c : Dev nD) → (b : Ref sig .tc) → Buf (Elt F) ((c : Thread nD τ).loc b))

/-- The printed index maps and the grid's coordinates, decided once over the 128 points. -/
theorem blkidx_facts1 : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val % 8
    ∧ win1_3.index t (0 : Fin 2) = t.val / 32 ∧ win1_3.index t (1 : Fin 2) = t.val / 8 % 4
    ∧ win1_4.index t (0 : Fin 2) = t.val / 32 ∧ win1_4.index t (1 : Fin 2) = t.val / 8 % 4 :=
  (by decide +kernel : ∀ t : Fin grid1.N, _)

theorem coords_facts1 : ∀ t : Fin cfg1.N,
    (grid1.coords t 0).val = t.val / 32 ∧ (grid1.coords t 1).val = t.val / 8 % 4 ∧ (grid1.coords t 2).val = t.val % 8 :=
  (by decide +kernel : ∀ t : Fin grid1.N, _)

/-- Window 0: rows of `T` from the row block, columns from the position along the contracted axis. -/
theorem iblk1_0_apply (c : Dev nD) (t : Fin cfg1.N) (p : Fin 1024) (k : Fin 2048) (r : Fin 4096) (e : Fin 16384)
    (hr : r.val = t.val / 32 * 1024 + p.val) (he : e.val = t.val % 8 * 2048 + k.val) :
    iblk1 V c 0 t (ix2 p k) = V c main_arg3 (ix2 r e) := by
  unfold iblk1
  rw [View.read_apply]
  show V c main_arg3 (((cfg1.win 0).blk t).view.emb (ix2 p k)) = V c main_arg3 (ix2 r e)
  obtain ⟨e0, e1, -⟩ := blkidx_facts1 t
  refine congrArg (V c main_arg3) (funext fun a => Fin.ext ?_)
  match a with
  | ⟨0, _⟩ => show win1_0.index t (0 : Fin 2) * 1024 + 1 * p.val = r.val; rw [e0, hr]; omega
  | ⟨1, _⟩ => show win1_0.index t (1 : Fin 2) * 2048 + 1 * k.val = e.val; rw [e1, he]; omega

/-- Window 1: rows of `T` from the column block, columns from the position along the contracted axis. -/
theorem iblk1_1_apply (c : Dev nD) (t : Fin cfg1.N) (q : Fin 1024) (k : Fin 2048) (cc : Fin 4096) (e : Fin 16384)
    (hcc : cc.val = t.val / 8 % 4 * 1024 + q.val) (he : e.val = t.val % 8 * 2048 + k.val) :
    iblk1 V c 1 t (ix2 q k) = V c main_arg3 (ix2 cc e) := by
  unfold iblk1
  rw [View.read_apply]
  show V c main_arg3 (((cfg1.win 1).blk t).view.emb (ix2 q k)) = V c main_arg3 (ix2 cc e)
  obtain ⟨-, -, e0, e1, -⟩ := blkidx_facts1 t
  refine congrArg (V c main_arg3) (funext fun a => Fin.ext ?_)
  match a with
  | ⟨0, _⟩ => show win1_1.index t (0 : Fin 2) * 1024 + 1 * q.val = cc.val; rw [e0, hcc]; omega
  | ⟨1, _⟩ => show win1_1.index t (1 : Fin 2) * 2048 + 1 * k.val = e.val; rw [e1, he]; omega

/-- Window 2: the weight row's columns from the position along the contracted axis. -/
theorem iblk1_2_apply (c : Dev nD) (t : Fin cfg1.N) (z : Fin 1) (k : Fin 2048) (e : Fin 16384)
    (he : e.val = t.val % 8 * 2048 + k.val) :
    iblk1 V c 2 t (ix2 z k) = V c main_v3 (ix2 (0 : Fin 1) e) := by
  unfold iblk1
  rw [View.read_apply]
  show V c main_v3 (((cfg1.win 2).blk t).view.emb (ix2 z k)) = V c main_v3 (ix2 (0 : Fin 1) e)
  obtain ⟨-, -, -, -, e0, e1, -⟩ := blkidx_facts1 t
  refine congrArg (V c main_v3) (funext fun a => Fin.ext ?_)
  match a with
  | ⟨0, _⟩ => show win1_2.index t (0 : Fin 2) * 1 + 1 * z.val = 0; rw [e0]; omega
  | ⟨1, _⟩ => show win1_2.index t (1 : Fin 2) * 2048 + 1 * k.val = e.val; rw [e1, he]; omega

/-- Window 3: the mask's block (row block, column block). -/
theorem iblk1_3_apply (c : Dev nD) (t : Fin cfg1.N) (p q : Fin 1024) (r cc : Fin 4096)
    (hr : r.val = t.val / 32 * 1024 + p.val) (hcc : cc.val = t.val / 8 % 4 * 1024 + q.val) :
    iblk1 V c 3 t (ix2 p q) = V c main_arg2 (ix2 r cc) := by
  unfold iblk1
  rw [View.read_apply]
  show V c main_arg2 (((cfg1.win 3).blk t).view.emb (ix2 p q)) = V c main_arg2 (ix2 r cc)
  obtain ⟨-, -, -, -, -, -, e0, e1, -⟩ := blkidx_facts1 t
  refine congrArg (V c main_arg2) (funext fun a => Fin.ext ?_)
  match a with
  | ⟨0, _⟩ => show win1_3.index t (0 : Fin 2) * 1024 + 1 * p.val = r.val; rw [e0, hr]; omega
  | ⟨1, _⟩ => show win1_3.index t (1 : Fin 2) * 1024 + 1 * q.val = cc.val; rw [e1, hcc]; omega

end Cert.KernelIdeal.Hand

end
-- ==== Proof.Spec.lean ====
/-
  The specification of the result, at the ideal instance (every float an extended real, every operation exact).

  For node features H [4096,1024], edge features ef [16384,3], adjacency adj [4096,4096], incidence T [4096,16384],
  weight W [1024,1024], bias [1024] and edge projection p [1,3]:

    wE[e]      = Σ_{j<3} ef[e,j] · p[0,j]                       (the per-edge scalar weight)
    mult[r,c]  = Σ_{e<16384} (T[r,e] · wE[e]) · T[c,e]          (T · diag(wE) · Tᵀ)
    adjA[r,c]  = (if r = c then 1 else mult[r,c]) · adj[r,c]    (ones on the diagonal, then the adjacency mask)
    hw[c,d]    = Σ_{k<1024} H[c,k] · W[k,d]
    out[r,d]   = (Σ_{c<4096} adjA[r,c] · hw[c,d]) + bias[d]

  The diagonal is written as a choice, not as arithmetic: with the indicator e ∈ {0,1} of the diagonal,
  e + (1 − e) · x is 1 when e = 1 and x when e = 0 for EVERY extended real x (infinite ones included), because
  1 − 1 = 0, 0 · x = 0, 1 − 0 = 1, 1 · x = x on the extended reals (`diag_one`, `diag_zero`).

  Arrays are functions from the literal shape's index type to the extended reals; indices are built from
  literal-size coordinates by `ix1` / `ix2`.
-/
import Idealize.ShloMosaic.PureOps.Ideal
import Idealize.ShloMosaic.Lib.ValueIdx

noncomputable section

open scoped BigOperators

namespace Cert.Spec

open Idealize.ShloMosaic Idealize.ShloMosaic.ValueIdx

/-- The per-edge scalar weight: row `e` of the edge features against the projection `p`. -/
def wE (ef : FVec Ideal ⟨2, ![16384, 3]⟩ .f32) (p : FVec Ideal ⟨2, ![1, 3]⟩ .f32) (e : Fin 16384) : EReal :=
  ∑ j : Fin 3, ef (ix2 e j) * p (ix2 (0 : Fin 1) j)

/-- The projected node features `H · W` at row `c`, column `d`. -/
def hw (H : FVec Ideal ⟨2, ![4096, 1024]⟩ .f32) (W : FVec Ideal ⟨2, ![1024, 1024]⟩ .f32)
    (c : Fin 4096) (d : Fin 1024) : EReal :=
  ∑ k : Fin 1024, H (ix2 c k) * W (ix2 k d)

/-- `T · diag(w) · Tᵀ` at row `r`, column `c`: each term is `(T[r,e] · w[e]) · T[c,e]`, in that association. -/
def mult (T : FVec Ideal ⟨2, ![4096, 16384]⟩ .f32) (w : Fin 16384 → EReal) (r c : Fin 4096) : EReal :=
  ∑ e : Fin 16384, (T (ix2 r e) * w e) * T (ix2 c e)

/-- The adjusted adjacency: one on the diagonal and `mult` off it, times the adjacency entry. -/
def adjA (T : FVec Ideal ⟨2, ![4096, 16384]⟩ .f32) (w : Fin 16384 → EReal)
    (adj : FVec Ideal ⟨2, ![4096, 4096]⟩ .f32) (r c : Fin 4096) : EReal :=
  (if r = c then 1 else mult T w r c) * adj (ix2 r c)

/-- The result at row `r`, column `d`. -/
def out (H : FVec Ideal ⟨2, ![4096, 1024]⟩ .f32) (ef : FVec Ideal ⟨2, ![16384, 3]⟩ .f32)
    (adj : FVec Ideal ⟨2, ![4096, 4096]⟩ .f32) (T : FVec Ideal ⟨2, ![4096, 16384]⟩ .f32)
    (W : FVec Ideal ⟨2, ![1024, 1024]⟩ .f32) (bias : FVec Ideal ⟨1, ![1024]⟩ .f32)
    (p : FVec Ideal ⟨2, ![1, 3]⟩ .f32) (r : Fin 4096) (d : Fin 1024) : EReal :=
  (∑ c : Fin 4096, adjA T (wE ef p) adj r c * hw H W c d) + bias (ix1 d)

/-- The result array as one function of the seven argument arrays. -/
def G (H : FVec Ideal ⟨2, ![4096, 1024]⟩ .f32) (ef : FVec Ideal ⟨2, ![16384, 3]⟩ .f32)
    (adj : FVec Ideal ⟨2, ![4096, 4096]⟩ .f32) (T : FVec Ideal ⟨2, ![4096, 16384]⟩ .f32)
    (W : FVec Ideal ⟨2, ![1024, 1024]⟩ .f32) (bias : FVec Ideal ⟨1, ![1024]⟩ .f32)
    (p : FVec Ideal ⟨2, ![1, 3]⟩ .f32) : FVec Ideal ⟨2, ![4096, 1024]⟩ .f32 :=
  fun i => out H ef adj T W bias p (i 0) (i 1)

/-- `G` at an index given by its coordinates. -/
theorem G_ix2 (H : FVec Ideal ⟨2, ![4096, 1024]⟩ .f32) (ef : FVec Ideal ⟨2, ![16384, 3]⟩ .f32)
    (adj : FVec Ideal ⟨2, ![4096, 4096]⟩ .f32) (T : FVec Ideal ⟨2, ![4096, 16384]⟩ .f32)
    (W : FVec Ideal ⟨2, ![1024, 1024]⟩ .f32) (bias : FVec Ideal ⟨1, ![1024]⟩ .f32)
    (p : FVec Ideal ⟨2, ![1, 3]⟩ .f32) (r : Fin 4096) (d : Fin 1024) :
    G H ef adj T W bias p (ix2 r d) = out H ef adj T W bias p r d := rfl

/-- On the diagonal the indicator is one: `1 + (1 − 1) · x = 1` for every extended real `x`, infinite ones included
    (`1 − 1 = 0` and `0 · x = 0`). -/
theorem diag_one (x : EReal) : (1 : EReal) + (1 - 1) * x = 1 := by
  have h : (1 : EReal) - 1 = 0 := by
    have : ((1 : ℝ) : EReal) - ((1 : ℝ) : EReal) = ((0 : ℝ) : EReal) := by rw [← EReal.coe_sub]; norm_num
    simpa using this
  rw [h, zero_mul, add_zero]

/-- Off the diagonal the indicator is zero: `0 + (1 − 0) · x = x` for every extended real `x`. -/
theorem diag_zero (x : EReal) : (0 : EReal) + (1 - 0) * x = x := by
  rw [sub_zero, one_mul, zero_add]

/-- The float pattern of `1.0` denotes the extended real one. -/
theorem ofBits_one : Ideal.ofBits .f32 0x3F800000#32 = (1 : EReal) := by
  simp [Ideal.ofBits, Ideal.ieee, -EReal.coe_mul]; norm_num

end Cert.Spec

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.KI.Val1Sum.lean ====
/-
  The contraction of T · diag(w) · Tᵀ taken block by block along the contracted axis.

  Entry (r, c) of T · diag(w) · Tᵀ is the sum over the 16384 edges e of (T[r,e] · w[e]) · T[c,e]. Cut into 8 consecutive
  blocks of 2048 edges, it is the sum over the blocks of each block's sum; `part` is the sum of the first n blocks, so
  each block adds its own sum to the part before it and the eighth part is the whole entry. Only associativity and
  commutativity of addition on the extended reals are used, so nothing needs to be finite.
-/
import proofs.«131233_j10007273800446_2_alg».proof.Proof.Spec
import proofs.«131233_j10007273800446_2_alg».proof.Proof.LibSumBlocks

noncomputable section

open scoped BigOperators

namespace Cert.KernelIdeal.Hand

open Idealize.ShloMosaic Idealize.ShloMosaic.ValueIdx Cert.Lib.SumBlocks

/-- One term of entry (r, c) of T · diag(w) · Tᵀ: edge `e`'s. -/
def term1 (T : FVec Ideal ⟨2, ![4096, 16384]⟩ .f32) (w : Fin 16384 → EReal) (r c : Fin 4096) (e : Fin 16384) : EReal :=
  (T (ix2 r e) * w e) * T (ix2 c e)

/-- The sum of the terms of the first `n` blocks of 2048 edges. -/
def part1 (T : FVec Ideal ⟨2, ![4096, 16384]⟩ .f32) (w : Fin 16384 → EReal) (r c : Fin 4096) (n : ℕ) : EReal :=
  ∑ s ∈ Finset.range n, ∑ k : Fin 2048, onNat (term1 T w r c) (s * 2048 + k.val)

/-- The first block alone. -/
theorem part1_one (T : FVec Ideal ⟨2, ![4096, 16384]⟩ .f32) (w : Fin 16384 → EReal) (r c : Fin 4096) :
    part1 T w r c 1 = ∑ k : Fin 2048, onNat (term1 T w r c) (0 * 2048 + k.val) := by
  unfold part1; rw [Finset.sum_range_one]

/-- One more block adds its own sum. -/
theorem part1_succ (T : FVec Ideal ⟨2, ![4096, 16384]⟩ .f32) (w : Fin 16384 → EReal) (r c : Fin 4096) (n : ℕ) :
    part1 T w r c (n + 1) = part1 T w r c n + ∑ k : Fin 2048, onNat (term1 T w r c) (n * 2048 + k.val) := by
  unfold part1; rw [Finset.sum_range_succ]

/-- All eight blocks are the whole entry. -/
theorem part1_eight (T : FVec Ideal ⟨2, ![4096, 16384]⟩ .f32) (w : Fin 16384 → EReal) (r c : Fin 4096) :
    part1 T w r c 8 = Cert.Spec.mult T w r c :=
  (sum_fin_blocks 8 2048 (by norm_num) (term1 T w r c)).symm

/-- A term named by block number and offset. -/
theorem term1_at (T : FVec Ideal ⟨2, ![4096, 16384]⟩ .f32) (w : Fin 16384 → EReal) (r c : Fin 4096) (s : ℕ) (k : Fin 2048)
    (e : Fin 16384) (he : e.val = s * 2048 + k.val) :
    onNat (term1 T w r c) (s * 2048 + k.val) = (T (ix2 r e) * w e) * T (ix2 c e) := by
  have hlt : s * 2048 + k.val < 16384 := he ▸ e.isLt
  rw [onNat_of_lt _ _ hlt]
  have : (⟨s * 2048 + k.val, hlt⟩ : Fin 16384) = e := Fin.ext he.symm
  rw [this]; rfl

end Cert.KernelIdeal.Hand

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.KI.Val1Pay.lean ====
/- The three values the body of region 1 stores, on the extended reals, read at an entry (p, q) of the 1024x1024
   block. The first is the zero block the accumulator starts from. The second adds to the accumulator the
   product of the first block, each column k scaled by the weight row's entry k, with the ROWS of the second
   block: entry (p, q) gains the sum over k of (x0(p,k) · w(0,k)) · x1(q,k). The third replaces the
   accumulator's diagonal entries by one and multiplies by the mask block: the block at grid coordinates
   (i0, i1) holds rows 1024·i0 … and columns 1024·i1 … of the whole array, so entry (p, q) is on the diagonal
   exactly when 1024·i0 + p = 1024·i1 + q, a comparison of 32-bit words that never wrap because both sides are
   below 4096. -/
import proofs.«131233_j10007273800446_2_alg».proof.Proof.Gen.KernelIdeal.Skeleton
import proofs.«131233_j10007273800446_2_alg».proof.Proof.Spec
import proofs.«131233_j10007273800446_2_alg».proof.Proof.LibRowsByRows
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

/-! ## The zero block -/

/-- Every entry of the first stored value is zero. -/
theorem pay1_1_apply (p q : Fin 1024) : k1_pay1 (F := Ideal) (ix2 p q) = 0 := by
  unfold k1_pay1
  simp only [shapeCast_self]
  exact Ideal.ofBits_zero_f32

/-! ## The accumulation step -/

/-- Entry (p, q) of the second stored value: the accumulator's entry plus the inner product of row p of the
    first block, scaled column by column by the weight row, with row q of the second block. The roundings to
    bf16 are the identity on the extended reals and the product's own accumulator is the zero splat. -/
theorem pay1_2_apply (x0 : Vec Ideal S1024x2048 .f32) (x2 : Vec Ideal S1x2048 .f32) (x1 : Vec Ideal S1024x2048 .f32)
    (s : Vec Ideal S1024x1024 .f32) (p q : Fin 1024) :
    k1_pay2 x0 x2 x1 s (ix2 p q)
      = s (ix2 p q) + ∑ k : Fin 2048, (x0 (ix2 p k) * x2 (ix2 (0 : Fin 1) k)) * x1 (ix2 q k) := by
  unfold k1_pay2
  simp only [shapeCast_self]
  refine (addf_apply _ _ _).trans (congrArg (s (ix2 p q) + ·) ?_)
  refine (Cert.RowsByRows.matmul_rowsByRows_apply dot_S1024x2048_S1024x2048_S1024x1024_1_1_0_0_n_n_wf none
    (truncf .bf16 (mulf x0 (broadcastTo S1024x2048 x2 broadcasts_S1x2048_S1024x2048)) bitsLt_bf16_f32)
    (truncf .bf16 x1 bitsLt_bf16_f32) p q).trans ?_
  refine Finset.sum_congr rfl fun k _ => ?_
  refine congrArg (· * x1 (ix2 q k)) ?_
  exact congrArg (x0 (ix2 p k) * ·) (broadcastTo_1b_ab_apply x2 broadcasts_S1x2048_S1024x2048 p k)

/-! ## The diagonal and the mask -/

/-- A block coordinate below 4 times 1024 plus an offset, computed on 32-bit words, is that number as a word. -/
theorem word_of (a p : Nat) :
    IntOp.addi (Scalar.muli (BitVec.ofNat 32 a) 1024#32) (BitVec.ofNat 32 p) = BitVec.ofNat 32 (a * 1024 + p) := by
  show BitVec.ofNat 32 a * BitVec.ofNat 32 1024 + BitVec.ofNat 32 p = _
  rw [BitVec.ofNat_add, BitVec.ofNat_mul]

/-- Two such words, both below 4096, are equal exactly when the numbers are: the select on their comparison is
    the choice on the numbers' equality. -/
theorem select_words {α : Type} (a b p q : Nat) (ha : a < 4) (hb : b < 4) (hp : p < 1024) (hq : q < 1024) (A B : α) :
    Scalar.select (IntOp.cmpi .eq (BitVec.ofNat 32 (a * 1024 + p)) (BitVec.ofNat 32 (b * 1024 + q))) A B
      = if a * 1024 + p = b * 1024 + q then A else B := by
  by_cases h : a * 1024 + p = b * 1024 + q
  · rw [if_pos h, h]
    have : IntOp.cmpi .eq (BitVec.ofNat 32 (b * 1024 + q)) (BitVec.ofNat 32 (b * 1024 + q)) = 1#1 := by
      simp [IntOp.cmpi]
    rw [this]; exact select_one A B
  · rw [if_neg h]
    have hne : BitVec.ofNat 32 (a * 1024 + p) ≠ BitVec.ofNat 32 (b * 1024 + q) := fun e => h (by
      have e' := congrArg BitVec.toNat e
      rw [BitVec.toNat_ofNat, BitVec.toNat_ofNat] at e'
      omega)
    have : IntOp.cmpi .eq (BitVec.ofNat 32 (a * 1024 + p)) (BitVec.ofNat 32 (b * 1024 + q)) = 0#1 := by
      show BitVec.ofBool (BitVec.ofNat 32 (a * 1024 + p) == BitVec.ofNat 32 (b * 1024 + q)) = 0#1
      rw [beq_eq_false_iff_ne.mpr hne]; rfl
    rw [this]; exact select_zero A B

/-- Entry (p, q) of the third stored value at grid coordinates `i`: one on the whole array's diagonal and the
    accumulator's entry off it, times the mask block's entry. -/
theorem pay1_3_apply (i : grid1.Coords) (s x3 : Vec Ideal S1024x1024 .f32) (p q : Fin 1024) :
    k1_pay3 i s x3 (ix2 p q)
      = (if (i 0).val * 1024 + p.val = (i 1).val * 1024 + q.val then (1 : EReal) else s (ix2 p q)) * x3 (ix2 p q) := by
  have h0 : (i 0).val < 4 := (i 0).isLt
  have h1 : (i 1).val < 4 := (i 1).isLt
  unfold k1_pay3
  show Scalar.select (IntOp.cmpi .eq
        (IntOp.addi (Scalar.muli (BitVec.ofNat 32 (i 0).val) 1024#32) (iota .tc S1024x1024 32 [0] iota_S1024x1024_d0_w32 (ix2 p q)))
        (IntOp.addi (Scalar.muli (BitVec.ofNat 32 (i 1).val) 1024#32) (iota .tc S1024x1024 32 [1] iota_S1024x1024_d1_w32 (ix2 p q))))
      (Ideal.ofBits .f32 0x3F800000#32) (s (ix2 p q)) * x3 (ix2 p q) = _
  rw [iota_single_apply, iota_single_apply]
  show Scalar.select (IntOp.cmpi .eq
        (IntOp.addi (Scalar.muli (BitVec.ofNat 32 (i 0).val) 1024#32) (BitVec.ofNat 32 p.val))
        (IntOp.addi (Scalar.muli (BitVec.ofNat 32 (i 1).val) 1024#32) (BitVec.ofNat 32 q.val)))
      (Ideal.ofBits .f32 0x3F800000#32) (s (ix2 p q)) * x3 (ix2 p q) = _
  rw [word_of, word_of, select_words _ _ _ _ h0 h1 p.isLt q.isLt, Cert.Spec.ofBits_one]

end Cert.KernelIdeal.Hand

end
-- ==== Proof.KI.Val1d.lean ====
/-
  Region 1 at the ideal values: the accumulator is the contraction's partial sum, and the block stored at the last
  position of the contracted axis is the adjusted adjacency's.

  At the point with row block a, column block b and position s along the contracted axis, entry (p, q) of the
  accumulator is the sum of the first s + 1 blocks of 2048 edges of entry (a·1024 + p, b·1024 + q) of T · diag(w) · Tᵀ:
  position 0 starts from the zero block, each later position adds its own block's sum to what the point before left (the
  same row and column blocks, one position earlier). After the last position all eight blocks are in, so the accumulator
  holds the whole entry, and the stored block is (one where global row = global column, that entry elsewhere) times the
  mask's entry. Only 0 + x = x and the associativity of addition are used: nothing needs to be finite.
-/
import proofs.«131233_j10007273800446_2_alg».proof.Proof.KI.Val1b
import proofs.«131233_j10007273800446_2_alg».proof.Proof.KI.Val1c
import proofs.«131233_j10007273800446_2_alg».proof.Proof.KI.Val1Sum
import proofs.«131233_j10007273800446_2_alg».proof.Proof.KI.Val1Pay

set_option maxRecDepth 16384

noncomputable section

open scoped BigOperators

namespace Cert.KernelIdeal.Hand

open Idealize.ShloMosaic Idealize.ShloMosaic.TcCoe Idealize.ShloMosaic.ValueIdx
open Cert.KernelIdeal Cert.KernelIdeal.Gen Cert.Lib.SumBlocks

variable (V : (c : Dev nD) → (b : Ref sig .tc) → Buf (Elt Ideal) ((c : Thread nD τ).loc b))

/-- This point's block of 2048 edges, read through the three input windows, is block `t % 8` of the contraction. -/
theorem block1_sum (c : Dev nD) (t : Fin cfg1.N) (p q : Fin 1024) (r cc : Fin 4096)
    (hr : r.val = t.val / 32 * 1024 + p.val) (hcc : cc.val = t.val / 8 % 4 * 1024 + q.val)
    (x0 : Vec Ideal S1024x2048 .f32) (x2 : Vec Ideal S1x2048 .f32) (x1 : Vec Ideal S1024x2048 .f32)
    (h0 : x0 = iblk1 V c 0 t) (h2 : x2 = iblk1 V c 2 t) (h1 : x1 = iblk1 V c 1 t) :
    ∑ k : Fin 2048, (x0 (ix2 p k) * x2 (ix2 (0 : Fin 1) k)) * x1 (ix2 q k)
      = ∑ k : Fin 2048, onNat (term1 (V c main_arg3) (fun e => V c main_v3 (ix2 (0 : Fin 1) e)) r cc) (t.val % 8 * 2048 + k.val) := by
  subst h0 h2 h1
  refine Finset.sum_congr rfl fun k _ => ?_
  have hlt : t.val % 8 * 2048 + k.val < 16384 := by have := k.isLt; omega
  rw [iblk1_0_apply V c t p k r ⟨_, hlt⟩ hr rfl, iblk1_1_apply V c t q k cc ⟨_, hlt⟩ hcc rfl,
    iblk1_2_apply V c t 0 k ⟨_, hlt⟩ rfl]
  exact (term1_at (V c main_arg3) (fun e => V c main_v3 (ix2 (0 : Fin 1) e)) r cc (t.val % 8) k ⟨_, hlt⟩ rfl).symm

/-- A point that starts the contraction leaves the first block's sum. -/
theorem acc1_step_A (c : Dev nD) (t : Fin cfg1.N) (h0 : t.val % 8 = 0) (p q : Fin 1024) (r cc : Fin 4096)
    (hr : r.val = t.val / 32 * 1024 + p.val) (hcc : cc.val = t.val / 8 % 4 * 1024 + q.val) :
    (outsAt1 V c t.val t.isLt).2 (ix2 p q) = part1 (V c main_arg3) (fun e => V c main_v3 (ix2 (0 : Fin 1) e)) r cc (t.val % 8 + 1) := by
  rw [acc1_A V c t h0 (by omega), pay1_2_apply, pay1_1_apply, zero_add,
    block1_sum V c t p q r cc hr hcc _ _ _ rfl rfl rfl, h0]
  exact (part1_one _ _ r cc).symm

/-- A later point adds its block's sum to what the point before left. -/
theorem acc1_step_BC (c : Dev nD) (t : Fin cfg1.N) (h0 : ¬t.val % 8 = 0) (p q : Fin 1024) (r cc : Fin 4096)
    (hr : r.val = t.val / 32 * 1024 + p.val) (hcc : cc.val = t.val / 8 % 4 * 1024 + q.val)
    (ih : (outsAt1 V c (t.val - 1) (Nat.lt_of_le_of_lt (Nat.sub_le _ _) t.isLt)).2 (ix2 p q)
        = part1 (V c main_arg3) (fun e => V c main_v3 (ix2 (0 : Fin 1) e)) r cc (t.val % 8)) :
    (outsAt1 V c t.val t.isLt).2 (ix2 p q) = part1 (V c main_arg3) (fun e => V c main_v3 (ix2 (0 : Fin 1) e)) r cc (t.val % 8 + 1) := by
  have hacc : (outsAt1 V c t.val t.isLt).2
      = k1_pay2 (iblk1 V c 0 t) (iblk1 V c 2 t) (iblk1 V c 1 t) (outsAt1 V c (t.val - 1) (Nat.lt_of_le_of_lt (Nat.sub_le _ _) t.isLt)).2 := by
    by_cases h1 : t.val % 8 = 7
    · exact acc1_C V c t h0 h1
    · exact acc1_B V c t h0 h1
  rw [hacc, pay1_2_apply, ih, block1_sum V c t p q r cc hr hcc _ _ _ rfl rfl rfl, part1_succ]

/-- THE INVARIANT: after position `n` of the grid the accumulator holds, entry by entry, the sum of the first
    `n % 8 + 1` blocks of the contraction for this point's row and column blocks. -/
theorem acc1_eq (c : Dev nD) : ∀ (n : ℕ) (hn : n < cfg1.N) (p q : Fin 1024) (r cc : Fin 4096),
    r.val = n / 32 * 1024 + p.val → cc.val = n / 8 % 4 * 1024 + q.val →
    (outsAt1 V c n hn).2 (ix2 p q) = part1 (V c main_arg3) (fun e => V c main_v3 (ix2 (0 : Fin 1) e)) r cc (n % 8 + 1) := by
  intro n
  induction n with
  | zero =>
    intro hn p q r cc hr hcc
    exact acc1_step_A V c ⟨0, hn⟩ rfl p q r cc hr hcc
  | succ m ih =>
    intro hn p q r cc hr hcc
    have hN : cfg1.N = 128 := N_1
    by_cases h0 : (m + 1) % 8 = 0
    · exact acc1_step_A V c ⟨m + 1, hn⟩ h0 p q r cc hr hcc
    · refine acc1_step_BC V c ⟨m + 1, hn⟩ h0 p q r cc hr hcc ?_
      have hm : m < cfg1.N := by omega
      have e := ih hm p q r cc (by omega) (by omega)
      have e8 : m % 8 + 1 = (m + 1) % 8 := by omega
      rw [e8] at e
      exact e

/-- At the last position of the contracted axis the stored block is the adjusted adjacency's: one on the global
    diagonal, the whole contraction elsewhere, times the mask's entry. -/
theorem out_last (c : Dev nD) (t : Fin cfg1.N) (h7 : t.val % 8 = 7) (p q : Fin 1024) (r cc : Fin 4096)
    (hr : r.val = (grid1.coords t 0).val * 1024 + p.val) (hc : cc.val = (grid1.coords t 1).val * 1024 + q.val) :
    (outsAt1 (F := Ideal) V c t.val t.isLt).1 (ix2 p q)
      = Cert.Spec.adjA (V c main_arg3) (fun e => V c main_v3 (ix2 (0 : Fin 1) e)) (V c main_arg2) r cc := by
  obtain ⟨g0, g1, -⟩ := coords_facts1 t
  have h0 : ¬t.val % 8 = 0 := by omega
  have hr' : r.val = t.val / 32 * 1024 + p.val := by rw [hr, g0]
  have hc' : cc.val = t.val / 8 % 4 * 1024 + q.val := by rw [hc, g1]
  have hacc := acc1_C V c t h0 h7
  have h8 : t.val % 8 + 1 = 8 := by omega
  rw [outb1_C V c t h0 h7, pay1_3_apply, ← hacc, acc1_eq V c t.val t.isLt p q r cc hr' hc', h8, part1_eight,
    iblk1_3_apply V c t p q r cc hr' hc']
  unfold Cert.Spec.adjA
  have hiff : ((grid1.coords t 0).val * 1024 + p.val = (grid1.coords t 1).val * 1024 + q.val) ↔ r = cc := by
    rw [Fin.ext_iff, hr, hc]
  rw [if_congr hiff rfl rfl]

end Cert.KernelIdeal.Hand

end
-- ==== Proof.KI.Val1Arr.lean ====
/- What region 1 leaves in its output array, on the extended reals, given what the body leaves in the output's
   staging buffer at the last step of each block: the 4096x4096 array of adjusted adjacencies. The grid is
   4 x 4 x 8: point t is block row t / 32, block column (t / 8) mod 4 and step t mod 8, and the output's block is
   written back at the last step only (t mod 8 = 7), to block (row, column) of the array. So every entry (r, c)
   is written exactly by the point 32·(r / 1024) + 8·(c / 1024) + 7, and the sixteen blocks cover the array. -/
import proofs.«131233_j10007273800446_2_alg».proof.Proof.KI.R1
import proofs.«131233_j10007273800446_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The array of adjusted adjacencies, from the arrays as the region finds them: the incidence array, the row of
    per-edge weights and the adjacency array. -/
def G1 (c : Dev nD) : S4096x4096.Idx → EReal :=
  fun i => Cert.Spec.adjA (V c main_arg3) (fun e => V c main_v3 (ix2 (0 : Fin 1) e)) (V c main_arg2) (i 0) (i 1)

/-- The grid's coordinates and the output window's block index at point `t`: block row `t / 32`, block column
    `(t / 8) mod 4`. -/
theorem idx_facts1_out : ∀ t : Fin cfg1.N, win1_4.index t (0 : Fin 2) = t.val / 32 ∧ win1_4.index t (1 : Fin 2) = t.val / 8 % 4
    ∧ (grid1.coords t 0).val = t.val / 32 ∧ (grid1.coords t 1).val = t.val / 8 % 4 :=
  (by decide +kernel : ∀ t : Fin grid1.N, _)

/-- What a last-step point writes back is its block of the array of adjusted adjacencies, given that the body
    leaves that block in the staging buffer there (`hout`). -/
theorem flushed1_eq
    (hout : ∀ (c : Dev nD) (t : Fin cfg1.N), t.val % 8 = 7 → ∀ (p q : Fin 1024) (r cc : Fin 4096),
      r.val = (grid1.coords t 0).val * 1024 + p.val → cc.val = (grid1.coords t 1).val * 1024 + q.val →
      (outsAt1 (F := Ideal) V c t.val t.isLt).1 (ix2 p q)
        = Cert.Spec.adjA (V c main_arg3) (fun e => V c main_v3 (ix2 (0 : Fin 1) e)) (V c main_arg2) r cc)
    (c : Dev nD) (t : Fin cfg1.N) (hf : (cfg1.win 4).flush t = true) :
    (dat1 (F := Ideal) V c).flushed 4 t = ((cfg1.win 4).blk t).view.read (Elt Ideal) (G1 V c) := by
  have h7 : t.val % 8 = 7 := (flush1_4 t).mp hf
  show (cfg1.win 4).cut (grid1.coords t) ((dat1 V c).after 4 t) = _
  rw [after1_4]
  obtain ⟨e0, e1, e2, e3⟩ := idx_facts1_out t
  funext j
  obtain ⟨p, q, rfl⟩ : ∃ (p q : Fin 1024), j = ix2 p q := ⟨j 0, j 1, eq_ix2 j⟩
  show (outsAt1 V c t.val t.isLt).1 (ix2 p q) = G1 V c (((cfg1.win 4).blk t).view.emb (ix2 p q))
  have hr : ((((cfg1.win 4).blk t).view.emb (ix2 p q) : S4096x4096.Idx) 0).val = (grid1.coords t 0).val * 1024 + p.val := by
    show win1_4.index t (0 : Fin 2) * 1024 + 1 * p.val = _; rw [e0, e2]; omega
  have hc : ((((cfg1.win 4).blk t).view.emb (ix2 p q) : S4096x4096.Idx) 1).val = (grid1.coords t 1).val * 1024 + q.val := by
    show win1_4.index t (1 : Fin 2) * 1024 + 1 * q.val = _; rw [e1, e3]; omega
  exact hout c t h7 p q _ _ hr hc

/-- An index of the output's array is in point `t`'s block iff each coordinate is in the block's range. -/
theorem mem_blk1 (t : Fin cfg1.N) (i : S4096x4096.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v6).slice (win1_4.rect t)).set ↔ _
  rw [View.set_slice_whole, Rect.mem_set_unit]
  exact Iff.rfl

/-- Every index of the output's array is in the block written back at the last step of its block row and column. -/
theorem cover1 (i : S4096x4096.Idx) :
    ∃ t : Fin cfg1.N, (cfg1.win 4).flush t = true ∧ i ∈ ((cfg1.win 4).blk t).view.set := by
  have hi0 : (i 0).val < 4096 := (i 0).isLt
  have hi1 : (i 1).val < 4096 := (i 1).isLt
  have hN : cfg1.N = 128 := N_1
  have hlt : (i 0).val / 1024 * 32 + (i 1).val / 1024 * 8 + 7 < cfg1.N := by rw [hN]; omega
  refine ⟨⟨(i 0).val / 1024 * 32 + (i 1).val / 1024 * 8 + 7, hlt⟩, (flush1_4 _).mpr ?_, ?_⟩
  · show ((i 0).val / 1024 * 32 + (i 1).val / 1024 * 8 + 7) % 8 = 7; omega
  rw [mem_blk1]
  obtain ⟨e0, e1, -, -⟩ := idx_facts1_out ⟨(i 0).val / 1024 * 32 + (i 1).val / 1024 * 8 + 7, hlt⟩
  intro a
  match a with
  | ⟨0, _⟩ =>
    show win1_4.index _ (0 : Fin 2) * 1024 ≤ (i 0).val ∧ (i 0).val < win1_4.index _ (0 : Fin 2) * 1024 + 1024
    rw [e0]
    show ((i 0).val / 1024 * 32 + (i 1).val / 1024 * 8 + 7) / 32 * 1024 ≤ (i 0).val
      ∧ (i 0).val < ((i 0).val / 1024 * 32 + (i 1).val / 1024 * 8 + 7) / 32 * 1024 + 1024
    omega
  | ⟨1, _⟩ =>
    show win1_4.index _ (1 : Fin 2) * 1024 ≤ (i 1).val ∧ (i 1).val < win1_4.index _ (1 : Fin 2) * 1024 + 1024
    rw [e1]
    show ((i 0).val / 1024 * 32 + (i 1).val / 1024 * 8 + 7) / 8 % 4 * 1024 ≤ (i 1).val
      ∧ (i 1).val < ((i 0).val / 1024 * 32 + (i 1).val / 1024 * 8 + 7) / 8 % 4 * 1024 + 1024
    omega

/-- THE ARRAY after region 1, entry by entry: the adjusted adjacency, given the body's last-step fact. -/
theorem final1_of
    (hout : ∀ (c : Dev nD) (t : Fin cfg1.N), t.val % 8 = 7 → ∀ (p q : Fin 1024) (r cc : Fin 4096),
      r.val = (grid1.coords t 0).val * 1024 + p.val → cc.val = (grid1.coords t 1).val * 1024 + q.val →
      (outsAt1 (F := Ideal) V c t.val t.isLt).1 (ix2 p q)
        = Cert.Spec.adjA (V c main_arg3) (fun e => V c main_v3 (ix2 (0 : Fin 1) e)) (V c main_arg2) r cc)
    (c : Dev nD) (r cc : Fin 4096) :
    (dat1 (F := Ideal) V c).arrAt 4 cfg1.N (ix2 r cc)
      = Cert.Spec.adjA (V c main_arg3) (fun e => V c main_v3 (ix2 (0 : Fin 1) e)) (V c main_arg2) r cc :=
  congrFun ((dat1 (F := Ideal) V c).arrAt_eq_of_cover 4 (G1 V c) (fun t hf => flushed1_eq V hout c t hf) (cover1))
    (ix2 r cc)

end Cert.KernelIdeal.Hand

end
-- ==== Proof.KI.Val1.lean ====
import proofs.«131233_j10007273800446_2_alg».proof.Proof.KI.Val1d
import proofs.«131233_j10007273800446_2_alg».proof.Proof.KI.Val1Arr

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- What region 1 leaves in its output array: one on the diagonal, the weighted Gram matrix of the rows of the incidence
    matrix elsewhere — the contraction over all edges, accumulated block by block along the edge axis —, times the mask. -/
theorem final1 (c : Dev nD) (r cc : Fin 4096) :
    (dat1 (F := Ideal) V c).arrAt 4 cfg1.N (ix2 r cc)
      = Cert.Spec.adjA (V c main_arg3) (fun e => V c main_v3 (ix2 (0 : Fin 1) e)) (V c main_arg2) r cc :=
  final1_of V (out_last V) c r cc

end Cert.KernelIdeal.Hand

end
-- ==== Proof.KI.Val2.lean ====
/- What region 2 leaves in its output array, on the extended reals: the product of the 4096x4096 array and the
   4096x1024 array the region reads, plus the one-row array on every row. The body's stored value at an entry
   is the sum over the contracted axis of the products of the two loaded blocks' entries plus the row's entry;
   the first input's and the output's blocks at grid point t are block row t of their arrays and the other two
   inputs' blocks are their whole arrays, so what point t writes back is block row t of the result; the four
   block rows cover the output array. -/
import proofs.«131233_j10007273800446_2_alg».proof.Proof.KI.R2
import proofs.«131233_j10007273800446_2_alg».proof.Proof.LibPlainMatmul
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry -/

/-- Entry (p, q) of what the body stores: the two loaded blocks' product there plus the row vector's entry q.
    The shape casts are to the same shapes, the accumulator is the zero splat, and the row is broadcast over
    the block's rows. -/
theorem pay2_apply (x0 : Vec Ideal S1024x4096 .bf16) (x1 : Vec Ideal S4096x1024 .bf16) (x2 : Vec Ideal S1x1024 .f32)
    (p q : Fin 1024) :
    k2_pay1 x0 x1 x2 (ix2 p q) = (∑ k : Fin 4096, x0 (ix2 p k) * x1 (ix2 k q)) + x2 (ix2 (0 : Fin 1) q) := by
  unfold k2_pay1
  simp only [shapeCast_self]
  refine (addf_apply _ _ _).trans (congrArg₂ (· + ·) ?_ ?_)
  · exact Cert.PlainMatmul.matmul_zero_apply dot_S1024x4096_S4096x1024_S1024x1024_1_0_0_1_n_n_wf none x0 x1 p q
  · exact broadcastTo_1b_ab_apply x2 broadcasts_S1x1024_S1024x1024 p q

/-! ## The result array as one function of the three arrays the region reads -/

/-- The product of a 4096x4096 array by a 4096x1024 array, plus a row vector on every row, entry by entry. -/
def G2 (a0 : S4096x4096.Idx → EReal) (a1 : S4096x1024.Idx → EReal) (a2 : S1x1024.Idx → EReal) : S4096x1024.Idx → EReal :=
  fun i => (∑ k : Fin 4096, a0 (ix2 (i 0) k) * a1 (ix2 k (i 1))) + a2 (ix2 (0 : Fin 1) (i 1))

/-- The result at row `r`, column `q`. -/
theorem G2_apply (a0 : S4096x4096.Idx → EReal) (a1 : S4096x1024.Idx → EReal) (a2 : S1x1024.Idx → EReal)
    (r : Fin 4096) (q : Fin 1024) :
    G2 a0 a1 a2 (ix2 r q) = (∑ k : Fin 4096, a0 (ix2 r k) * a1 (ix2 k q)) + a2 (ix2 (0 : Fin 1) q) := rfl

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: at point `t` the first input's and the output's blocks are block
    row `t`, the second and third inputs' blocks are their whole arrays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first input's block at point `t` is rows `1024 t … 1024 t + 1023` of its array. -/
theorem iblk2_0_apply (c : Dev nD) (t : Fin cfg2.N) (p : Fin 1024) (k : Fin 4096) (i : S4096x4096.Idx)
    (h0 : (i 0).val = 1024 * t.val + p.val) (h1 : (i 1).val = k.val) :
    (iblk2 V c 0 t : Vec Ideal S1024x4096 .bf16) (ix2 p k) = (V c main_v6 : S4096x4096.Idx → EReal) i := by
  obtain ⟨e0, e1, -, -, -, -, -, -⟩ := idx_facts2 t
  unfold iblk2
  rw [View.read_apply]
  show (V c main_v6 : S4096x4096.Idx → EReal) _ = _
  refine congrArg _ (funext fun a => Fin.ext ?_)
  match a with
  | ⟨0, _⟩ => show win2_0.index t (0 : Fin 2) * 1024 + 1 * p.val = (i 0).val; rw [e0, h0]; omega
  | ⟨1, _⟩ => show win2_0.index t (1 : Fin 2) * 4096 + 1 * k.val = (i 1).val; rw [e1, h1]; omega

/-- The second input's block at every point is its whole array. -/
theorem iblk2_1_apply (c : Dev nD) (t : Fin cfg2.N) (k : Fin 4096) (q : Fin 1024) :
    (iblk2 V c 1 t : Vec Ideal S4096x1024 .bf16) (ix2 k q) = (V c main_v5 : S4096x1024.Idx → EReal) (ix2 k q) := by
  obtain ⟨-, -, e2, e3, -, -, -, -⟩ := idx_facts2 t
  unfold iblk2
  rw [View.read_apply]
  show (V c main_v5 : S4096x1024.Idx → EReal) _ = _
  refine congrArg _ (funext fun a => Fin.ext ?_)
  match a with
  | ⟨0, _⟩ => show win2_1.index t (0 : Fin 2) * 4096 + 1 * k.val = k.val; rw [e2]; omega
  | ⟨1, _⟩ => show win2_1.index t (1 : Fin 2) * 1024 + 1 * q.val = q.val; rw [e3]; omega

/-- The third input's block at every point is its whole one-row array. -/
theorem iblk2_2_apply (c : Dev nD) (t : Fin cfg2.N) (q : Fin 1024) :
    (iblk2 V c 2 t : Vec Ideal S1x1024 .f32) (ix2 (0 : Fin 1) q) = (V c main_v4 : S1x1024.Idx → EReal) (ix2 (0 : Fin 1) q) := by
  obtain ⟨-, -, -, -, e4, e5, -, -⟩ := idx_facts2 t
  unfold iblk2
  rw [View.read_apply]
  show (V c main_v4 : S1x1024.Idx → EReal) _ = _
  refine congrArg _ (funext fun a => Fin.ext ?_)
  match a with
  | ⟨0, _⟩ => show win2_2.index t (0 : Fin 2) * 1 + 1 * (0 : Fin 1).val = (0 : Fin 1).val; rw [e4]; rfl
  | ⟨1, _⟩ => show win2_2.index t (1 : Fin 2) * 1024 + 1 * q.val = q.val; rw [e5]; omega

/-- What point `t` writes back is block `t` of the product plus the row, of the arrays as the region finds them. -/
theorem flushed2_eq (c : Dev nD) (t : Fin cfg2.N) :
    (dat2 (F := Ideal) V c).flushed 3 t
      = ((cfg2.win 3).blk t).view.read (Elt Ideal) (G2 (V c main_v6) (V c main_v5) (V c main_v4)) := by
  show (cfg2.win 3).cut (grid2.coords t) ((dat2 V c).after 3 t) = _
  rw [after2_3]
  unfold out2_3
  rw [View.canon_unit_zero hz2]
  simp only [View.ld_unit_zero (S := S1024x4096) hz2, View.ld_unit_zero (S := S4096x1024) hz2, View.ld_unit_zero (S := S1x1024) hz2]
  obtain ⟨-, -, -, -, -, -, e6, e7⟩ := idx_facts2 t
  funext j
  obtain ⟨p, q, rfl⟩ : ∃ (p q : Fin 1024), j = ix2 p q := ⟨j 0, j 1, eq_ix2 j⟩
  show k2_pay1 (iblk2 V c 0 t) (iblk2 V c 1 t) (iblk2 V c 2 t) (ix2 p q)
    = G2 (V c main_v6) (V c main_v5) (V c main_v4) (((cfg2.win 3).blk t).view.emb (ix2 p q))
  rw [pay2_apply]
  unfold G2
  have hr : ((((cfg2.win 3).blk t).view.emb (ix2 p q) : S4096x1024.Idx) 0).val = 1024 * t.val + p.val := by
    show win2_3.index t (0 : Fin 2) * 1024 + 1 * p.val = _; rw [e6]; omega
  have hc : ((((cfg2.win 3).blk t).view.emb (ix2 p q) : S4096x1024.Idx) 1).val = q.val := by
    show win2_3.index t (1 : Fin 2) * 1024 + 1 * q.val = _; rw [e7]; omega
  have hq : ((((cfg2.win 3).blk t).view.emb (ix2 p q) : S4096x1024.Idx) 1) = q := Fin.ext hc
  rw [iblk2_2_apply V c t q]
  refine congrArg₂ (· + ·) (Finset.sum_congr rfl fun k _ => ?_) ?_
  · rw [iblk2_0_apply V c t p k (ix2 ((((cfg2.win 3).blk t).view.emb (ix2 p q) : S4096x1024.Idx) 0) k) hr rfl,
      iblk2_1_apply V c t k q]
    refine congrArg _ (congrArg _ (funext fun a => Fin.ext ?_))
    match a with
    | ⟨0, _⟩ => rfl
    | ⟨1, _⟩ => exact hc.symm
  · refine congrArg _ (funext fun a => Fin.ext ?_)
    match a with
    | ⟨0, _⟩ => rfl
    | ⟨1, _⟩ => exact hc.symm

/-- An index of the output's array is in point `t`'s block iff each coordinate is in the block's range. -/
theorem mem_blk2 (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v7).slice (win2_3.rect t)).set ↔ _
  rw [View.set_slice_whole, Rect.mem_set_unit]
  exact Iff.rfl

/-- Every index of the output's array is in the block of the point its row falls in. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 4 := N_2
  refine ⟨⟨(i 0).val / 1024, by rw [hN]; omega⟩, flush2_3 _, ?_⟩
  rw [mem_blk2]
  obtain ⟨-, -, -, -, -, -, e6, e7⟩ := idx_facts2 ⟨(i 0).val / 1024, by rw [hN]; omega⟩
  intro a
  match a with
  | ⟨0, _⟩ => show win2_3.index _ (0 : Fin 2) * 1024 ≤ (i 0).val ∧ (i 0).val < win2_3.index _ (0 : Fin 2) * 1024 + 1024; rw [e6]; show (i 0).val / 1024 * 1024 ≤ (i 0).val ∧ (i 0).val < (i 0).val / 1024 * 1024 + 1024; omega
  | ⟨1, _⟩ => show win2_3.index _ (1 : Fin 2) * 1024 ≤ (i 1).val ∧ (i 1).val < win2_3.index _ (1 : Fin 2) * 1024 + 1024; rw [e7]; omega

/-- THE ARRAY after region 2: the product of the two arrays plus the row, of the arrays as the region finds them. -/
theorem final2 (c : Dev nD) :
    (dat2 (F := Ideal) V c).arrAt 3 cfg2.N = G2 (V c main_v6) (V c main_v5) (V c main_v4) :=
  (dat2 (F := Ideal) V c).arrAt_eq_of_cover 3 (G2 (V c main_v6) (V c main_v5) (V c main_v4)) (fun t _ => flushed2_eq V c t) cover2

end Cert.KernelIdeal.Hand

end
-- ==== Proof.KI.HostVal.lean ====
/- What the host operations before the kernel regions leave in the two arrays the regions read, on the extended
   reals, entry by entry. The first four operations transpose the 1x3 projection to a column, multiply the
   16384x3 edge features by it, and re-lay the 16384x1 product as a 1x16384 row: entry e of that row is the sum
   over the three features of edge e's feature times the projection's entry — the per-edge weight. The fifth
   re-lays the 1024-vector of biases as a 1x1024 row: entry d of the row is entry d of the vector. -/
import proofs.«131233_j10007273800446_2_alg».proof.Proof.Gen.KernelIdeal.Regions
import proofs.«131233_j10007273800446_2_alg».proof.Proof.Gen.KernelIdeal.Launch
import proofs.«131233_j10007273800446_2_alg».proof.Proof.Spec
import proofs.«131233_j10007273800446_2_alg».proof.Proof.LibPlainMatmul
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo

/-! ## The per-edge weights -/

/-- The row of per-edge weights as the four operations compute it from the edge features and the projection:
    the product of the features by the transposed projection, re-laid from a column to a vector to a row. -/
def hostW (x1 : FVec Ideal S16384x3 .f32) (x6 : FVec Ideal S1x3 .f32) : FVec Ideal S1x16384 .f32 :=
  shapeCast S1x16384
    (shapeCast S16384
      (Host.dotGeneral (F := Ideal) dot_S16384x3_S3x1_S16384x1_1_0_0_1_n_n none x1
        (transpose S3x1 [1, 0] x6 transposes_S1x3_S3x1_1_0))
      shapeCasts_S16384x1_S16384)
    shapeCasts_S16384_S1x16384

/-- Entry `e` of that row is the per-edge weight of edge `e`: both re-layings keep the row-major position, the
    product at (e, 0) is the sum over the three features, and the transposed projection at (j, 0) is the
    projection at (0, j). -/
theorem hostW_apply (x1 : FVec Ideal S16384x3 .f32) (x6 : FVec Ideal S1x3 .f32) (e : Fin 16384) :
    hostW x1 x6 (ix2 (0 : Fin 1) e) = Cert.Spec.wE x1 x6 e := by
  unfold hostW
  refine (shapeCast_a_1a_apply _ shapeCasts_S16384_S1x16384 (0 : Fin 1) e).trans ?_
  refine (shapeCast_apply _ shapeCasts_S16384x1_S16384 (ix1 e) (ix2 e (0 : Fin 1)) ?_).trans ?_
  · rw [Shape.rowMajor_val_two, Shape.rowMajor_val_one]
    show e.val * 1 + 0 = e.val
    omega
  refine (Cert.PlainMatmul.dotGeneral_apply dot_S16384x3_S3x1_S16384x1_1_0_0_1_n_n_wf none .single x1
    (transpose S3x1 [1, 0] x6 transposes_S1x3_S3x1_1_0) e (0 : Fin 1)).trans ?_
  unfold Cert.Spec.wE
  refine Finset.sum_congr rfl fun j _ => ?_
  exact congrArg (x1 (ix2 e j) * ·) (transpose_ix2_apply x6 transposes_S1x3_S3x1_1_0 j (0 : Fin 1))

variable (m : (ℓ : Loc nD τ sig) → Buf (Elt Ideal) ℓ)

/-- After the host operations the row array holds `hostW` of the two argument arrays as launched. -/
theorem V1_main_v3 (c : Dev nD) :
    (V1 m c (Proc.devRef .tc main_v3) : S1x16384.Idx → EReal)
      = hostW (m ((c : Thread nD τ).loc main_arg1)) (m ((c : Thread nD τ).loc main_arg6)) := by
  show StableHlo.after hostOps0 (fun b => m (c, b)) (Proc.devRef .tc main_v3) = _
  after_results
  rfl

/-- Entry `e` of the row array after the host operations is the per-edge weight of edge `e`. -/
theorem hostv3 (c : Dev nD) (e : Fin 16384) :
    (V1 m c (Proc.devRef .tc main_v3) : S1x16384.Idx → EReal) (ix2 (0 : Fin 1) e)
      = Cert.Spec.wE (m ((c : Thread nD τ).loc main_arg1)) (m ((c : Thread nD τ).loc main_arg6)) e := by
  rw [V1_main_v3]
  exact hostW_apply _ _ e

/-! ## The bias row -/

/-- After the host operations the bias row holds the bias vector re-laid as a row. -/
theorem V1_main_v4 (c : Dev nD) :
    (V1 m c (Proc.devRef .tc main_v4) : S1x1024.Idx → EReal)
      = shapeCast S1x1024 (m ((c : Thread nD τ).loc main_arg5) : S1024.Idx → EReal) shapeCasts_S1024_S1x1024 := by
  show StableHlo.after hostOps0 (fun b => m (c, b)) (Proc.devRef .tc main_v4) = _
  after_results
  rfl

/-- Entry `d` of the bias row after the host operations is entry `d` of the bias vector. -/
theorem hostv4 (c : Dev nD) (d : Fin 1024) :
    (V1 m c (Proc.devRef .tc main_v4) : S1x1024.Idx → EReal) (ix2 (0 : Fin 1) d)
      = (m ((c : Thread nD τ).loc main_arg5) : S1024.Idx → EReal) (ix1 d) := by
  rw [V1_main_v4]
  exact shapeCast_a_1a_apply _ shapeCasts_S1024_S1x1024 (0 : Fin 1) d

end Cert.KernelIdeal.Hand

end
-- ==== Proof.KI.Value.lean ====
import proofs.«131233_j10007273800446_2_alg».proof.Proof.KI.Run
import proofs.«131233_j10007273800446_2_alg».proof.Proof.KI.Val0
import proofs.«131233_j10007273800446_2_alg».proof.Proof.KI.Val1
import proofs.«131233_j10007273800446_2_alg».proof.Proof.KI.Val2
import proofs.«131233_j10007273800446_2_alg».proof.Proof.KI.HostVal
import proofs.«131233_j10007273800446_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-! # The result array as one function of the argument arrays

Region 2 leaves A·HW + bias, where A is what region 1 left (one on the diagonal, the weighted Gram matrix of the rows of T
elsewhere, times the mask) and HW what region 0 left (H·W); the weights and the bias row are what the host operations
before the regions wrote. Every buffer a region reads is traced back to the launch memory. -/

theorem V2_arg3 (c : Dev nD) : V2 m c main_arg3 = m ((c : Thread nD τ).loc main_arg3) :=
  (W2_of_ne m c main_arg3 (by decide)).trans (Gen.V1_of m c main_arg3 (by decide))
theorem V2_arg2 (c : Dev nD) : V2 m c main_arg2 = m ((c : Thread nD τ).loc main_arg2) :=
  (W2_of_ne m c main_arg2 (by decide)).trans (Gen.V1_of m c main_arg2 (by decide))
theorem V2_v3 (c : Dev nD) : V2 m c main_v3 = Gen.V1 m c (Proc.devRef .tc main_v3) :=
  W2_of_ne m c main_v3 (by decide)
theorem V3_v6 (c : Dev nD) : V3 m c main_v6 = (dat1 (V2 m) c).arrAt 4 cfg1.N := W3_v6 m c
theorem V3_v5 (c : Dev nD) : V3 m c main_v5 = (dat0 (V1 m) c).arrAt 2 cfg0.N :=
  (W3_of_ne m c main_v5 (by decide)).trans (W2_arr m c 2)
theorem V3_v4 (c : Dev nD) : V3 m c main_v4 = Gen.V1 m c (Proc.devRef .tc main_v4) :=
  (W3_of_ne m c main_v4 (by decide)).trans (W2_of_ne m c main_v4 (by decide))
theorem V1_arg0 (c : Dev nD) : V1 m c main_arg0 = m ((c : Thread nD τ).loc main_arg0) := Gen.V1_of m c main_arg0 (by decide)
theorem V1_arg4 (c : Dev nD) : V1 m c main_arg4 = m ((c : Thread nD τ).loc main_arg4) := Gen.V1_of m c main_arg4 (by decide)

/-- What the run leaves in the result array is the specification's function of the launch contents of the seven arguments. -/
theorem kernel_value (c : Dev nD) :
    (dat2 (F := Ideal) (V3 m) c).arrAt 3 cfg2.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [final2]
  funext i
  obtain ⟨r, d, rfl⟩ : ∃ (r : Fin 4096) (d : Fin 1024), i = ix2 r d := ⟨i 0, i 1, eq_ix2 i⟩
  rw [G2_apply, Cert.Spec.G_ix2]
  unfold Cert.Spec.out
  refine congrArg₂ (· + ·) (Finset.sum_congr rfl fun k _ => congrArg₂ (· * ·) ?_ ?_) ?_
  · rw [V3_v6, final1 (V2 m) c r k, V2_arg3, V2_arg2]
    refine congrArg (fun w => Cert.Spec.adjA _ w _ r k) (funext fun e => ?_)
    rw [V2_v3]; exact hostv3 m c e
  · rw [V3_v5, final0, G0_apply, V1_arg0, V1_arg4]; rfl
  · rw [V3_v4]; exact hostv4 m c d

end Cert.KernelIdeal.Hand

end
-- ==== Proof.RefValueA.lean ====
/-
  The reference's adjusted adjacency, read at an index, at the ideal instance.

  The reference builds the identity matrix as "row number = column number" converted to a float (an entry is the
  extended real 1 on the diagonal and 0 off it), forms M = eye + (1 − eye) · mult with
  mult = (T · diag(w)) · Tᵀ and w = ef · pᵀ, and masks it by the adjacency. Entry by entry that is
  (if r = c then 1 else mult[r,c]) · adj[r,c]: on the diagonal 1 + (1 − 1) · x = 1 and off it 0 + (1 − 0) · x = x
  for every extended real x, so no finiteness of the inputs is used.
-/
import proofs.«131233_j10007273800446_2_alg».proof.Proof.Spec
import proofs.«131233_j10007273800446_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The identity matrix -/

/-- Row number against column number, as 32-bit words: equal exactly on the diagonal (both numbers are below 2³²). -/
theorem eye_word (r c : Fin 4096) :
    IntOp.cmpi .eq (IntOp.addi (BitVec.ofNat 32 r.val) 0#32) (BitVec.ofNat 32 c.val) = if r = c then 1#1 else 0#1 := by
  unfold IntOp.cmpi IntOp.addi
  rw [BitVec.add_zero]
  by_cases h : r = c
  · subst h; simp
  · rw [if_neg h]
    have hne : BitVec.ofNat 32 r.val ≠ BitVec.ofNat 32 c.val := by
      intro he
      apply h
      apply Fin.ext
      have h2 := congrArg BitVec.toNat he
      simp only [BitVec.toNat_ofNat] at h2
      have hr := r.isLt
      have hc := c.isLt
      omega
    have hb : (BitVec.ofNat 32 r.val == BitVec.ofNat 32 c.val) = false := beq_eq_false_iff_ne.mpr hne
    rw [hb]; rfl

/-- The one-bit answer read as a float: the extended real 1 or 0. -/
theorem eye_val (r c : Fin 4096) :
    FloatOps.uitofp (F := Ideal) .f32 (if r = c then 1#1 else 0#1) = if r = c then (1 : EReal) else 0 := by
  by_cases h : r = c
  · rw [if_pos h, if_pos h]; show (((1#1 : BitVec 1).toNat : ℝ) : EReal) = 1; simp
  · rw [if_neg h, if_neg h]; show (((0#1 : BitVec 1).toNat : ℝ) : EReal) = 0; simp

/-- The identity matrix at row `r`, column `c`. -/
theorem eye_apply (r c : Fin 4096) :
    val_main_v13 (F := Ideal) (ix2 r c) = if r = c then (1 : EReal) else 0 := by
  rw [val_main_v13_apply, val_main_v12_apply, val_main_v11_apply, val_main_v8_apply, val_main_v9_apply,
    val_main_v10_apply, val_main_c_apply]
  exact (congrArg (FloatOps.uitofp (F := Ideal) .f32) (eye_word r c)).trans (eye_val r c)

/-! ## The per-edge weight and `T · diag(w) · Tᵀ` -/

/-- The per-edge weight, broadcast down the rows: entry `[r, e]` is `w[e]`. -/
theorem w_apply (x1 : (⟨S16384x3, .f32⟩ : BufTy).Contents (Elt Ideal)) (x6 : (⟨S1x3, .f32⟩ : BufTy).Contents (Elt Ideal))
    (r : Fin 4096) (e : Fin 16384) :
    val_main_v4 (F := Ideal) x1 x6 (ix2 r e) = Cert.Spec.wE x1 x6 e := by
  rw [val_main_v4_apply, val_main_v3_apply, val_main_v2_apply, val_main_v1_apply]
  unfold Cert.Spec.wE
  refine Finset.sum_congr rfl fun k _ => ?_
  rw [val_main_v0_apply]
  have e1 : lidx_main_v1 (idx_main_v2 (idx_main_v3 (idx_main_v4 (ix2 r e)))) k = ix2 e k :=
    funext fun a => Fin.ext (by
      match a with
      | ⟨0, _⟩ => exact Nat.div_one _
      | ⟨1, _⟩ => rfl)
  have e2 : idx_main_v0 (ridx_main_v1 (idx_main_v2 (idx_main_v3 (idx_main_v4 (ix2 r e)))) k) = ix2 (0 : Fin 1) k :=
    funext fun a => Fin.ext (by
      match a with
      | ⟨0, _⟩ => rfl
      | ⟨1, _⟩ => rfl)
  rw [e1, e2]

/-- `(T · diag(w)) · Tᵀ` at row `r`, column `c`. -/
theorem mult_apply (x1 : (⟨S16384x3, .f32⟩ : BufTy).Contents (Elt Ideal)) (x3 : (⟨S4096x16384, .f32⟩ : BufTy).Contents (Elt Ideal))
    (x6 : (⟨S1x3, .f32⟩ : BufTy).Contents (Elt Ideal)) (r c : Fin 4096) :
    val_main_v7 (F := Ideal) x1 x3 x6 (ix2 r c) = Cert.Spec.mult x3 (Cert.Spec.wE x1 x6) r c := by
  rw [val_main_v7_apply]
  unfold Cert.Spec.mult
  refine Finset.sum_congr rfl fun e _ => ?_
  rw [val_main_v5_apply, val_main_v6_apply]
  have e1 : lidx_main_v7 (ix2 r c) e = ix2 r e :=
    funext fun a => Fin.ext (by
      match a with
      | ⟨0, _⟩ => rfl
      | ⟨1, _⟩ => rfl)
  have e2 : idx_main_v6 (ridx_main_v7 (ix2 r c) e) = ix2 c e :=
    funext fun a => Fin.ext (by
      match a with
      | ⟨0, _⟩ => rfl
      | ⟨1, _⟩ => rfl)
  rw [e1, e2, w_apply]
  rfl

/-! ## Ones on the diagonal, then the adjacency mask -/

/-- `eye + (1 − eye) · mult` at row `r`, column `c`: one on the diagonal, `mult` off it. -/
theorem M_apply (x1 : (⟨S16384x3, .f32⟩ : BufTy).Contents (Elt Ideal)) (x3 : (⟨S4096x16384, .f32⟩ : BufTy).Contents (Elt Ideal))
    (x6 : (⟨S1x3, .f32⟩ : BufTy).Contents (Elt Ideal)) (r c : Fin 4096) :
    val_main_v17 (F := Ideal) x1 x3 x6 (ix2 r c)
      = if r = c then (1 : EReal) else Cert.Spec.mult x3 (Cert.Spec.wE x1 x6) r c := by
  rw [val_main_v17_apply, val_main_v16_apply, val_main_v15_apply, val_main_v14_apply, val_main_cst_apply,
    eye_apply, mult_apply]
  show (if r = c then (1 : EReal) else 0)
      + (Ideal.ofBits .f32 0x3F800000#32 - (if r = c then (1 : EReal) else 0)) * Cert.Spec.mult x3 (Cert.Spec.wE x1 x6) r c = _
  rw [Cert.Spec.ofBits_one]
  by_cases h : r = c
  · rw [if_pos h, if_pos h]; exact Cert.Spec.diag_one _
  · rw [if_neg h, if_neg h]; exact Cert.Spec.diag_zero _

/-- The adjusted adjacency at row `r`, column `c`. -/
theorem adjA_apply (x1 : (⟨S16384x3, .f32⟩ : BufTy).Contents (Elt Ideal)) (x2 : (⟨S4096x4096, .f32⟩ : BufTy).Contents (Elt Ideal))
    (x3 : (⟨S4096x16384, .f32⟩ : BufTy).Contents (Elt Ideal)) (x6 : (⟨S1x3, .f32⟩ : BufTy).Contents (Elt Ideal)) (r c : Fin 4096) :
    val_main_v18 (F := Ideal) x1 x2 x3 x6 (ix2 r c) = Cert.Spec.adjA x3 (Cert.Spec.wE x1 x6) x2 r c := by
  rw [val_main_v18_apply, M_apply]
  rfl

end Cert.ReferenceIdeal.RefValue

end
-- ==== Proof.RefValueB.lean ====
/-
  The reference's projected node features H · W and its bias row, read at an index, at the ideal instance:
  entry [c, d] of H · W is Σ_k H[c,k] · W[k,d], and the bias broadcast down the rows has bias[d] at every [r, d].
-/
import proofs.«131233_j10007273800446_2_alg».proof.Proof.Spec
import proofs.«131233_j10007273800446_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-- `H · W` at row `c`, column `d`. -/
theorem hw_apply (x0 : (⟨S4096x1024, .f32⟩ : BufTy).Contents (Elt Ideal)) (x4 : (⟨S1024x1024, .f32⟩ : BufTy).Contents (Elt Ideal))
    (c : Fin 4096) (d : Fin 1024) :
    val_main_v19 (F := Ideal) x0 x4 (ix2 c d) = Cert.Spec.hw x0 x4 c d := by
  rw [val_main_v19_apply]
  unfold Cert.Spec.hw
  refine Finset.sum_congr rfl fun k _ => ?_
  have e1 : lidx_main_v19 (ix2 c d) k = ix2 c k :=
    funext fun a => Fin.ext (by
      match a with
      | ⟨0, _⟩ => rfl
      | ⟨1, _⟩ => rfl)
  have e2 : ridx_main_v19 (ix2 c d) k = ix2 k d :=
    funext fun a => Fin.ext (by
      match a with
      | ⟨0, _⟩ => rfl
      | ⟨1, _⟩ => rfl)
  rw [e1, e2]

/-- The bias broadcast down the rows: entry `[r, d]` is `bias[d]`. -/
theorem bias_apply (x5 : (⟨S1024, .f32⟩ : BufTy).Contents (Elt Ideal)) (r : Fin 4096) (d : Fin 1024) :
    val_main_v22 (F := Ideal) x5 (ix2 r d) = x5 (ix1 d) := by
  rw [val_main_v22_apply, val_main_v21_apply]
  have e1 : idx_main_v21 (idx_main_v22 (ix2 r d)) = ix1 d :=
    funext fun a => Fin.ext (by
      match a with
      | ⟨0, _⟩ => rfl)
  rw [e1]

end Cert.ReferenceIdeal.RefValue

end
-- ==== Proof.RefValue.lean ====
/-
  The reference's result is the specification G, at the ideal instance.

  Entry [r, d] of the reference's result is (Σ_c adjA[r,c] · (H · W)[c,d]) + bias[d], where adjA is the masked matrix with
  ones on the diagonal (read at an index in RefValueA) and H · W and the bias row are read in RefValueB. That is
  the specification's `out` term by term, so the two arrays are one function.
-/
import proofs.«131233_j10007273800446_2_alg».proof.Proof.RefValueA
import proofs.«131233_j10007273800446_2_alg».proof.Proof.RefValueB

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference run's result term (as a stage of the generated read-back) is the specification `G` of the seven
    argument arrays. -/
theorem result_eq (x0 : (⟨S4096x1024, .f32⟩ : BufTy).Contents (Elt Ideal)) (x1 : (⟨S16384x3, .f32⟩ : BufTy).Contents (Elt Ideal))
    (x2 : (⟨S4096x4096, .f32⟩ : BufTy).Contents (Elt Ideal)) (x3 : (⟨S4096x16384, .f32⟩ : BufTy).Contents (Elt Ideal))
    (x4 : (⟨S1024x1024, .f32⟩ : BufTy).Contents (Elt Ideal)) (x5 : (⟨S1024, .f32⟩ : BufTy).Contents (Elt Ideal))
    (x6 : (⟨S1x3, .f32⟩ : BufTy).Contents (Elt Ideal)) :
    val_main_v23 (F := Ideal) x0 x1 x2 x3 x4 x5 x6 = Cert.Spec.G x0 x1 x2 x3 x4 x5 x6 := by
  funext i
  obtain ⟨r, d, rfl⟩ : ∃ (r : Fin 4096) (d : Fin 1024), i = ix2 r d := ⟨i 0, i 1, eq_ix2 i⟩
  rw [Cert.Spec.G_ix2, val_main_v23_apply, val_main_v20_apply, bias_apply]
  unfold Cert.Spec.out
  show (∑ k : Fin 4096, val_main_v18 (F := Ideal) x1 x2 x3 x6 (lidx_main_v20 (ix2 r d) k)
        * val_main_v19 (F := Ideal) x0 x4 (ridx_main_v20 (ix2 r d) k)) + x5 (ix1 d) = _
  refine congrArg (· + x5 (ix1 d)) (Finset.sum_congr rfl fun k _ => ?_)
  have e1 : lidx_main_v20 (ix2 r d) k = ix2 r k :=
    funext fun a => Fin.ext (by
      match a with
      | ⟨0, _⟩ => rfl
      | ⟨1, _⟩ => rfl)
  have e2 : ridx_main_v20 (ix2 r d) k = ix2 k d :=
    funext fun a => Fin.ext (by
      match a with
      | ⟨0, _⟩ => rfl
      | ⟨1, _⟩ => rfl)
  rw [e1, e2, adjA_apply, hw_apply]

/-! ## The reference's run, with its result stated as the specification -/

open Idealize.ShloMosaic.TcCoe Idealize.SL.Sem in
/-- Every weakly fair execution of the reference terminates with its result array at the specification `G` of the
    arguments' launch contents, the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨by rw [(h c).1, val_main_v23_eq, result_eq], (h c).2⟩)
    (Cert.ReferenceIdeal.Value.run (F := Ideal) m ρ)

end Cert.ReferenceIdeal.RefValue

end
-- ==== Proof.RefFrame.lean ====
/-
  The reference's frame: under the precondition every weakly fair execution of the reference program terminates,
  nothing faults, and its seven argument arrays end unchanged. The reference is a straight line of host operations;
  its generated run states the final memory (the result at the operations' composed term, each argument unchanged),
  and the frame is that run with the statement about the result dropped.
-/
import proofs.«131233_j10007273800446_2_alg».proof.Defs
import proofs.«131233_j10007273800446_2_alg».proof.Proof.Gen.ReferenceIdeal.Run
import proofs.«131233_j10007273800446_2_alg».proof.Proof.Gen.Pre_finite_inputs

noncomputable section

namespace Cert.Proof.RefClaims

open Idealize.ShloMosaic Idealize.SL.Sem

/-- The reference terminates on every weakly fair execution and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.lean ====
/- Equivalence, over the extended reals, of a three-kernel graph layer and its plain reference: for a feature matrix H, a
   dense projection W, a bias row b, an incidence matrix T of nodes against edges, per-edge features reduced by a row p to
   one weight per edge, w = E pᵀ, and an adjacency mask A, both programs compute
       out = ((I + (1 - I) ∘ (T diag(w) Tᵀ)) ∘ A) · (H · W) + b .
   The kernels take the product H·W whole per row block, accumulate the weighted Gram matrix T diag(w) Tᵀ block by block
   along the edge axis in a scratch accumulator that lives across grid points (reset at the first block, emitted at the
   last with the diagonal set to one and the mask applied), and take the last product whole per row block with the bias
   added. At the exact instance the change of float format is the identity, a contraction taken block by block is the
   contraction taken whole (sums over a finite type commute and regroup), and on the diagonal 1 + (1 - 1)·x = 1 for every
   extended real x, so no finiteness of the inputs is used.
   The frame of each program (it terminates, faults nowhere, leaves its arguments unchanged) is the run of its four
   items — the host operations, then the three kernel regions — each region entered from what the item before it left. -/
import proofs.«131233_j10007273800446_2_alg».proof.Defs
import proofs.«131233_j10007273800446_2_alg».proof.Proof.Gen.Kernel
import proofs.«131233_j10007273800446_2_alg».proof.Proof.Gen.KernelIdeal
import proofs.«131233_j10007273800446_2_alg».proof.Proof.Gen.ReferenceIdeal
import proofs.«131233_j10007273800446_2_alg».proof.Proof.Gen.Pre_finite_inputs
import proofs.«131233_j10007273800446_2_alg».proof.Proof.K.Run
import proofs.«131233_j10007273800446_2_alg».proof.Proof.KI.Run
import proofs.«131233_j10007273800446_2_alg».proof.Proof.KI.Value
import proofs.«131233_j10007273800446_2_alg».proof.Proof.RefValue
import proofs.«131233_j10007273800446_2_alg».proof.Proof.RefFrame
import Idealize.ShloMosaic.Adequacy
import Idealize.ShloMosaic.Init

noncomputable section

namespace Cert.Proof

open Idealize.ShloMosaic Idealize.ShloMosaic.TcCoe Idealize.SL.Sem

/-- The word-level program runs and leaves its arguments unchanged: its run, the result forgotten. -/
theorem frame_p : Cert.frame_Kernel := fun m ρ _ =>
  (θ_run Cert.Kernel.defs _ _).mono (fun _ h c => (h c).2) (Cert.Kernel.Hand.run_main (F := Bits) m ρ)

/-- The same program read at the extended reals. -/
theorem frame_pi : Cert.frame_KernelIdeal := fun m ρ _ =>
  (θ_run Cert.KernelIdeal.defs _ _).mono (fun _ h c => (h c).2) (Cert.KernelIdeal.Hand.run_main (F := Ideal) m ρ)

/-- Both programs end with the specification's function of their (equal) arguments in the result array. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨?_, (h c).2⟩) (Cert.ReferenceIdeal.RefValue.run_G m' ρ')
    rw [(h c).1, (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_p, frame_pi, Cert.Proof.RefClaims.frame_ri, trivial, algebraic⟩

end Cert.Proof

end
